-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S64x512x16 : Shape := ⟨3, ![64, 512, 16]⟩
abbrev S5000x256 : Shape := ⟨2, ![5000, 256]⟩
abbrev S24990002x1 : Shape := ⟨2, ![24990002, 1]⟩
abbrev S5000x1 : Shape := ⟨2, ![5000, 1]⟩
abbrev S20x256 : Shape := ⟨2, ![20, 256]⟩
abbrev S20 : Shape := ⟨1, ![20]⟩
abbrev S_ : Shape := ⟨0, ![]⟩

class Facts : Prop where
  bcast_S_S5000x256 : S_.BroadcastsInDim S5000x256 (![] : Fin 0 → Fin S5000x256.rank)
  reducesTo_S5000x256_S_d0_1 : S5000x256.ReducesTo [0, 1] S_
  h_S_ : 0 < S_.numel
  bcast_S_S24990002x1 : S_.BroadcastsInDim S24990002x1 (![] : Fin 0 → Fin S24990002x1.rank)
  reducesTo_S24990002x1_S_d0_1 : S24990002x1.ReducesTo [0, 1] S_
  bcast_S_S5000x1 : S_.BroadcastsInDim S5000x1 (![] : Fin 0 → Fin S5000x1.rank)
  reducesTo_S5000x1_S_d0_1 : S5000x1.ReducesTo [0, 1] S_
  bcast_S_S20x256 : S_.BroadcastsInDim S20x256 (![] : Fin 0 → Fin S20x256.rank)
  reducesTo_S20x256_S_d0_1 : S20x256.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg7 : FVec F S20 .f32) (main_v13 : IVec S_ 1) (main_v16 : IVec S20x256 1) : IVec S_ 1 :=
  let main_c_5 : IVec S_ 1 := constantI S_ 1 1#1
  let main_v17 : IVec S_ 1 := (fun x v => Host.reduce IntOp.andi x v reducesTo_S20x256_S_d0_1 h_S_) main_v16 main_c_5
  let main_v18 : IVec S_ 1 := andi main_v13 main_v17
  let main_v19 : FVec F S20 .f32 := Host.absf main_arg7
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  main_v23

def fn {F : FTy → Type} [FloatOps F] (main_arg0 : IVec S64x512 32) (main_arg1 : IVec S64x512x16 32) (main_arg2 : IVec S64x512x16 32) (main_arg3 : FVec F S5000x256 .f32) (main_arg4 : FVec F S24990002x1 .f32) (main_arg5 : FVec F S5000x1 .f32) (main_arg6 : FVec F S20x256 .f32) (main_arg7 : FVec F S20 .f32) : IVec S_ 1 :=
  let main_v0 : FVec F S5000x256 .f32 := Host.absf main_arg3
  let main_cst : FVec F S_ .f32 := constant S_ .f32 0x7F800000#32
  let main_v1 : FVec F S5000x256 .f32 := broadcastInDim S5000x256 ![] bcast_S_S5000x256 main_cst
  let main_v2 : IVec S5000x256 1 := cmpf .olt main_v0 main_v1
  let main_c : IVec S_ 1 := constantI S_ 1 1#1
  let main_v3 : IVec S_ 1 := (fun x v => Host.reduce IntOp.andi x v reducesTo_S5000x256_S_d0_1 h_S_) main_v2 main_c
  let main_v4 : FVec F S24990002x1 .f32 := Host.absf main_arg4
  let main_cst_0 : FVec F S_ .f32 := constant S_ .f32 0x7F800000#32
  let main_v5 : FVec F S24990002x1 .f32 := broadcastInDim S24990002x1 ![] bcast_S_S24990002x1 main_cst_0
  let main_v6 : IVec S24990002x1 1 := cmpf .olt main_v4 main_v5
  let main_c_1 : IVec S_ 1 := constantI S_ 1 1#1
  let main_v7 : IVec S_ 1 := (fun x v => Host.reduce IntOp.andi x v reducesTo_S24990002x1_S_d0_1 h_S_) main_v6 main_c_1
  let main_v8 : IVec S_ 1 := andi main_v3 main_v7
  let main_v9 : FVec F S5000x1 .f32 := Host.absf main_arg5
  let main_cst_2 : FVec F S_ .f32 := constant S_ .f32 0x7F800000#32
  let main_v10 : FVec F S5000x1 .f32 := broadcastInDim S5000x1 ![] bcast_S_S5000x1 main_cst_2
  let main_v11 : IVec S5000x1 1 := cmpf .olt main_v9 main_v10
  let main_c_3 : IVec S_ 1 := constantI S_ 1 1#1
  let main_v12 : IVec S_ 1 := (fun x v => Host.reduce IntOp.andi x v reducesTo_S5000x1_S_d0_1 h_S_) main_v11 main_c_3
  let main_v13 : IVec S_ 1 := andi main_v8 main_v12
  let main_v14 : FVec F S20x256 .f32 := Host.absf main_arg6
  let main_cst_4 : FVec F S_ .f32 := constant S_ .f32 0x7F800000#32
  let main_v15 : FVec F S20x256 .f32 := broadcastInDim S20x256 ![] bcast_S_S20x256 main_cst_4
  let main_v16 : IVec S20x256 1 := cmpf .olt main_v14 main_v15
  fn_part1 (F := F) main_arg7 main_v13 main_v16
-- ==== Kernel.lean ====
abbrev S64x512 : Shape := ⟨2, ![64, 512]⟩
abbrev S64x512x16 : Shape := ⟨3, ![64, 512, 16]⟩
abbrev S5000x256 : Shape := ⟨2, ![5000, 256]⟩
abbrev S24990002x1 : Shape := ⟨2, ![24990002, 1]⟩
abbrev S5000x1 : Shape := ⟨2, ![5000, 1]⟩
abbrev S20x256 : Shape := ⟨2, ![20, 256]⟩
abbrev S20 : Shape := ⟨1, ![20]⟩
abbrev S_ : Shape := ⟨0, ![]⟩
abbrev S64x512x16x1 : Shape := ⟨4, ![64, 512, 16, 1]⟩
abbrev S64x512x16x256 : Shape := ⟨4, ![64, 512, 16, 256]⟩
abbrev S64x512x1 : Shape := ⟨3, ![64, 512, 1]⟩
abbrev S64x512x256 : Shape := ⟨3, ![64, 512, 256]⟩
abbrev S256x20 : Shape := ⟨2, ![256, 20]⟩
abbrev S1x20 : Shape := ⟨2, ![1, 20]⟩
abbrev S64x20 : Shape := ⟨2, ![64, 20]⟩
abbrev S16x128x16x256 : Shape := ⟨4, ![16, 128, 16, 256]⟩
abbrev S16x128x16 : Shape := ⟨3, ![16, 128, 16]⟩
abbrev S16x128x256 : Shape := ⟨3, ![16, 128, 256]⟩
abbrev S16x128x1 : Shape := ⟨3, ![16, 128, 1]⟩
abbrev S16x20 : Shape := ⟨2, ![16, 20]⟩
abbrev S16x256 : Shape := ⟨2, ![16, 256]⟩
abbrev S16x128x16x1 : Shape := ⟨4, ![16, 128, 16, 1]⟩
abbrev S16 : Shape := ⟨1, ![16]⟩
abbrev S16x1 : Shape := ⟨2, ![16, 1]⟩

abbrev nBuf : Space → Nat
  | .hbm => 50
  | .vmem => 13
  | .smem => 0
  | _ => 0

abbrev bufTy : (tb : Table) → Fin (tcTables nBuf tb) → BufTy
  | .hbm, ⟨0, _⟩ => ⟨S64x512, .i32⟩
  | .hbm, ⟨1, _⟩ => ⟨S64x512x16, .i32⟩
  | .hbm, ⟨2, _⟩ => ⟨S64x512x16, .i32⟩
  | .hbm, ⟨3, _⟩ => ⟨S5000x256, .f32⟩
  | .hbm, ⟨4, _⟩ => ⟨S24990002x1, .f32⟩
  | .hbm, ⟨5, _⟩ => ⟨S5000x1, .f32⟩
  | .hbm, ⟨6, _⟩ => ⟨S20x256, .f32⟩
  | .hbm, ⟨7, _⟩ => ⟨S20, .f32⟩
  | .hbm, ⟨8, _⟩ => ⟨S_, .i32⟩
  | .hbm, ⟨9, _⟩ => ⟨S64x512x16, .i32⟩
  | .hbm, ⟨10, _⟩ => ⟨S64x512x16, .i1⟩
  | .hbm, ⟨11, _⟩ => ⟨S_, .i32⟩
  | .hbm, ⟨12, _⟩ => ⟨S64x512x16, .i32⟩
  | .hbm, ⟨13, _⟩ => ⟨S64x512x16, .i32⟩
  | .hbm, ⟨14, _⟩ => ⟨S64x512x16, .i32⟩
  | .hbm, ⟨15, _⟩ => ⟨S64x512x16x1, .i32⟩
  | .hbm, ⟨16, _⟩ => ⟨S64x512x16x256, .f32⟩
  | .hbm, ⟨17, _⟩ => ⟨S64x512x16x256, .bf16⟩
  | .hbm, ⟨18, _⟩ => ⟨S_, .i32⟩
  | .hbm, ⟨19, _⟩ => ⟨S64x512, .i32⟩
  | .hbm, ⟨20, _⟩ => ⟨S64x512, .i1⟩
  | .hbm, ⟨21, _⟩ => ⟨S_, .i32⟩
  | .hbm, ⟨22, _⟩ => ⟨S64x512, .i32⟩
  | .hbm, ⟨23, _⟩ => ⟨S64x512, .i32⟩
  | .hbm, ⟨24, _⟩ => ⟨S64x512, .i32⟩
  | .hbm, ⟨25, _⟩ => ⟨S64x512x1, .i32⟩
  | .hbm, ⟨26, _⟩ => ⟨S64x512x256, .f32⟩
  | .hbm, ⟨27, _⟩ => ⟨S64x512x256, .bf16⟩
  | .hbm, ⟨28, _⟩ => ⟨S_, .i32⟩
  | .hbm, ⟨29, _⟩ => ⟨S64x512x16, .i32⟩
  | .hbm, ⟨30, _⟩ => ⟨S64x512x16, .i1⟩
  | .hbm, ⟨31, _⟩ => ⟨S_, .i32⟩
  | .hbm, ⟨32, _⟩ => ⟨S64x512x16, .i32⟩
  | .hbm, ⟨33, _⟩ => ⟨S64x512x16, .i32⟩
  | .hbm, ⟨34, _⟩ => ⟨S64x512x16, .i32⟩
  | .hbm, ⟨35, _⟩ => ⟨S64x512x16x1, .i32⟩
  | .hbm, ⟨36, _⟩ => ⟨S64x512x16x1, .f32⟩
  | .hbm, ⟨37, _⟩ => ⟨S64x512x16, .f32⟩
  | .hbm, ⟨38, _⟩ => ⟨S_, .i32⟩
  | .hbm, ⟨39, _⟩ => ⟨S64x512, .i32⟩
  | .hbm, ⟨40, _⟩ => ⟨S64x512, .i1⟩
  | .hbm, ⟨41, _⟩ => ⟨S_, .i32⟩
  | .hbm, ⟨42, _⟩ => ⟨S64x512, .i32⟩
  | .hbm, ⟨43, _⟩ => ⟨S64x512, .i32⟩
  | .hbm, ⟨44, _⟩ => ⟨S64x512, .i32⟩
  | .hbm, ⟨45, _⟩ => ⟨S64x512x1, .i32⟩
  | .hbm, ⟨46, _⟩ => ⟨S64x512x1, .f32⟩
  | .hbm, ⟨47, _⟩ => ⟨S256x20, .f32⟩
  | .hbm, ⟨48, _⟩ => ⟨S1x20, .f32⟩
  | .hbm, ⟨49, _⟩ => ⟨S64x20, .f32⟩
  | .local _ .vmem, ⟨0, _⟩ => ⟨S16x128x16x256, .bf16⟩
  | .local _ .vmem, ⟨1, _⟩ => ⟨S16x128x16x256, .bf16⟩
  | .local _ .vmem, ⟨2, _⟩ => ⟨S16x128x16, .f32⟩
  | .local _ .vmem, ⟨3, _⟩ => ⟨S16x128x16, .f32⟩
  | .local _ .vmem, ⟨4, _⟩ => ⟨S16x128x256, .bf16⟩
  | .local _ .vmem, ⟨5, _⟩ => ⟨S16x128x256, .bf16⟩
  | .local _ .vmem, ⟨6, _⟩ => ⟨S16x128x1, .f32⟩
  | .local _ .vmem, ⟨7, _⟩ => ⟨S16x128x1, .f32⟩
  | .local _ .vmem, ⟨8, _⟩ => ⟨S256x20, .f32⟩
  | .local _ .vmem, ⟨9, _⟩ => ⟨S1x20, .f32⟩
  | .local _ .vmem, ⟨10, _⟩ => ⟨S16x20, .f32⟩
  | .local _ .vmem, ⟨11, _⟩ => ⟨S16x20, .f32⟩
  | .local _ .vmem, ⟨12, _⟩ => ⟨S16x256, .f32⟩
  | _, _ => ⟨S64x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_19 : BitVec 32 := 0#32
  let v32 : BitVec 1 := Scalar.cmpi .ne v31 c0_i32_19
  v32

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x128x16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S64x512x16 : S_.BroadcastsInDim S64x512x16 (![] : Fin 0 → Fin S64x512x16.rank)
  bcast_S64x512x16_S64x512x16x1_0_1_2 : S64x512x16.BroadcastsInDim S64x512x16x1 (![0, 1, 2] : Fin 3 → Fin S64x512x16x1.rank)
  bitsLt_bf16_f32 : FTy.bits .bf16 < FTy.bits .f32
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  shapeCasts_S64x512x16x1_S64x512x16 : S64x512x16x1.ShapeCasts S64x512x16
  transposes_S20x256_S256x20_1_0 : S20x256.Transposes [1, 0] S256x20
  shapeCasts_S20_S1x20 : S20.ShapeCasts S1x20
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x128x16x256_S16x128x16x256_0_0_0_0 : ∀ a, (![0, 0, 0, 0] : Fin 4 → Nat) a + S16x128x16x256.size a ≤ S16x128x16x256.size a
  h_S16x128x16x256 : 0 < S16x128x16x256.numel
  shapeCasts_S16x128x16x256_S16x128x16x256 : S16x128x16x256.ShapeCasts S16x128x16x256
  inb_S16x128x16_S16x128x16_0_0_0 : ∀ a, (![0, 0, 0] : Fin 3 → Nat) a + S16x128x16.size a ≤ S16x128x16.size a
  h_S16x128x16 : 0 < S16x128x16.numel
  shapeCasts_S16x128x16_S16x128x16 : S16x128x16.ShapeCasts S16x128x16
  shapeCasts_S16x128x16_S16x128x16x1 : S16x128x16.ShapeCasts S16x128x16x1
  broadcasts_S16x128x16x1_S16x128x16x256 : S16x128x16x1.Broadcasts S16x128x16x256
  reduces_S16x128x16x256_S16x128x256 : S16x128x16x256.Reduces [2] S16x128x256
  inb_S16x128x256_S16x128x256_0_0_0 : ∀ a, (![0, 0, 0] : Fin 3 → Nat) a + S16x128x256.size a ≤ S16x128x256.size a
  h_S16x128x256 : 0 < S16x128x256.numel
  shapeCasts_S16x128x256_S16x128x256 : S16x128x256.ShapeCasts S16x128x256
  inb_S16x128x1_S16x128x1_0_0_0 : ∀ a, (![0, 0, 0] : Fin 3 → Nat) a + S16x128x1.size a ≤ S16x128x1.size a
  h_S16x128x1 : 0 < S16x128x1.numel
  shapeCasts_S16x128x1_S16x128x1 : S16x128x1.ShapeCasts S16x128x1
  broadcasts_S16x128x1_S16x128x256 : S16x128x1.Broadcasts S16x128x256
  reduces_S16x128x256_S16x256 : S16x128x256.Reduces [1] S16x256
  inb_S256x20_S256x20_0_0 : ∀ a, (![0, 0] : Fin 2 → Nat) a + S256x20.size a ≤ S256x20.size a
  h_S256x20 : 0 < S256x20.numel
  shapeCasts_S256x20_S256x20 : S256x20.ShapeCasts S256x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S16x20 : S1x20.Broadcasts S16x20
  reduces_S16x20_S16 : S16x20.Reduces [1] S16
  shapeCasts_S16_S16x1 : S16.ShapeCasts S16x1
  broadcasts_S16x1_S16x20 : S16x1.Broadcasts S16x20
  inb_S16x20_S16x20_0_0 : ∀ a, (![0, 0] : Fin 2 → Nat) a + S16x20.size a ≤ S16x20.size a
  h_S16x20 : 0 < S16x20.numel
  gather_S5000x256_S64x512x16x1_S64x512x16x256_3_0_n_n_0_3_1256_wf : GatherDims.WF S5000x256 S64x512x16x1 S64x512x16x256 [3] [0] [] [0] [] 3 ![1, 256]
  gather_S5000x256_S64x512x1_S64x512x256_2_0_n_n_0_2_1256_wf : GatherDims.WF S5000x256 S64x512x1 S64x512x256 [2] [0] [] [0] [] 2 ![1, 256]
  gather_S24990002x1_S64x512x16x1_S64x512x16x1_3_0_n_n_0_3_11_wf : GatherDims.WF S24990002x1 S64x512x16x1 S64x512x16x1 [3] [0] [] [0] [] 3 ![1, 1]
  gather_S5000x1_S64x512x1_S64x512x1_2_0_n_n_0_2_11_wf : GatherDims.WF S5000x1 S64x512x1 S64x512x1 [2] [0] [] [0] [] 2 ![1, 1]
  dot_S16x256_S256x20_S16x20_1_0_0_1_n_n_wf : DotDims.WF S16x256 S256x20 S16x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x16x256.size a ≤ S64x512x16x256.size a
  hwx0_0 : ∀ i : grid0.Coords, EltTy.bits .bf16 = 32 ∨ (Rect.block (s := S64x512x16x256) S16x128x16x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x16.size a ≤ S64x512x16.size a
  hwx0_1 : ∀ i : grid0.Coords, EltTy.bits .f32 = 32 ∨ (Rect.block (s := S64x512x16) S16x128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x256.size a ≤ S64x512x256.size a
  hwx0_2 : ∀ i : grid0.Coords, EltTy.bits .bf16 = 32 ∨ (Rect.block (s := S64x512x256) S16x128x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128x1.size a ≤ S64x512x1.size a
  hwx0_3 : ∀ i : grid0.Coords, EltTy.bits .f32 = 32 ∨ (Rect.block (s := S64x512x1) S16x128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x20.size a ≤ S256x20.size a
  hwx0_4 : ∀ i : grid0.Coords, EltTy.bits .f32 = 32 ∨ (Rect.block (s := S256x20) S256x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x20.size a ≤ S1x20.size a
  hwx0_5 : ∀ i : grid0.Coords, EltTy.bits .f32 = 32 ∨ (Rect.block (s := S1x20) S1x20.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x20.size a ≤ S64x20.size a
  hwx0_6 : ∀ i : grid0.Coords, EltTy.bits .f32 = 32 ∨ (Rect.block (s := S64x20) S16x20.size (cc0_transform_6 i) (hinb0_6 i)).WholeWords (EltTy.packing .f32)

variable [Facts₀]

def gather_S5000x256_S64x512x16x1_S64x512x16x256_3_0_n_n_0_3_1256 : GatherDims S5000x256 S64x512x16x1 S64x512x16x256 where
  offsetDims := [3]
  collapsedSliceDims := [0]
  operandBatchingDims := []
  startIndicesBatchingDims := []
  startIndexMap := [0]
  indexVectorDim := 3
  sliceSizes := ![1, 256]
  wf := gather_S5000x256_S64x512x16x1_S64x512x16x256_3_0_n_n_0_3_1256_wf
def gather_S5000x256_S64x512x1_S64x512x256_2_0_n_n_0_2_1256 : GatherDims S5000x256 S64x512x1 S64x512x256 where
  offsetDims := [2]
  collapsedSliceDims := [0]
  operandBatchingDims := []
  startIndicesBatchingDims := []
  startIndexMap := [0]
  indexVectorDim := 2
  sliceSizes := ![1, 256]
  wf := gather_S5000x256_S64x512x1_S64x512x256_2_0_n_n_0_2_1256_wf
def gather_S24990002x1_S64x512x16x1_S64x512x16x1_3_0_n_n_0_3_11 : GatherDims S24990002x1 S64x512x16x1 S64x512x16x1 where
  offsetDims := [3]
  collapsedSliceDims := [0]
  operandBatchingDims := []
  startIndicesBatchingDims := []
  startIndexMap := [0]
  indexVectorDim := 3
  sliceSizes := ![1, 1]
  wf := gather_S24990002x1_S64x512x16x1_S64x512x16x1_3_0_n_n_0_3_11_wf
def gather_S5000x1_S64x512x1_S64x512x1_2_0_n_n_0_2_11 : GatherDims S5000x1 S64x512x1 S64x512x1 where
  offsetDims := [2]
  collapsedSliceDims := [0]
  operandBatchingDims := []
  startIndicesBatchingDims := []
  startIndexMap := [0]
  indexVectorDim := 2
  sliceSizes := ![1, 1]
  wf := gather_S5000x1_S64x512x1_S64x512x1_2_0_n_n_0_2_11_wf
def dot_S16x256_S256x20_S16x20_1_0_0_1_n_n : DotDims S16x256 S256x20 S16x20 where
  lhsContracting := [1]
  rhsContracting := [0]
  lhsNonContracting := [0]
  rhsNonContracting := [1]
  lhsBatch := []
  rhsBatch := []
  wf := dot_S16x256_S256x20_S16x20_1_0_0_1_n_n_wf

abbrev win0_0 : Pipeline.Window sig grid0 :=
  Pipeline.Window.ofSpec (Memref.whole main_v7) S16x128x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S16x128x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S16x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S16x128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S256x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S16x20.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S64x512 : Shape := ⟨2, ![64, 512]⟩
abbrev S64x512x16 : Shape := ⟨3, ![64, 512, 16]⟩
abbrev S5000x256 : Shape := ⟨2, ![5000, 256]⟩
abbrev S24990002x1 : Shape := ⟨2, ![24990002, 1]⟩
abbrev S5000x1 : Shape := ⟨2, ![5000, 1]⟩
abbrev S20x256 : Shape := ⟨2, ![20, 256]⟩
abbrev S20 : Shape := ⟨1, ![20]⟩
abbrev S_ : Shape := ⟨0, ![]⟩
abbrev S64x512x16x1 : Shape := ⟨4, ![64, 512, 16, 1]⟩
abbrev S64x512x16x256 : Shape := ⟨4, ![64, 512, 16, 256]⟩
abbrev S64x512x256 : Shape := ⟨3, ![64, 512, 256]⟩
abbrev S64x512x1 : Shape := ⟨3, ![64, 512, 1]⟩
abbrev S64x256 : Shape := ⟨2, ![64, 256]⟩
abbrev S256x20 : Shape := ⟨2, ![256, 20]⟩
abbrev S64x20 : Shape := ⟨2, ![64, 20]⟩
abbrev S1x20 : Shape := ⟨2, ![1, 20]⟩
abbrev S64 : Shape := ⟨1, ![64]⟩
abbrev S64x1 : Shape := ⟨2, ![64, 1]⟩

abbrev nBuf : Space → Nat
  | .hbm => 81
  | .vmem => 0
  | .smem => 0
  | _ => 0

abbrev bufTy : (tb : Table) → Fin (tcTables nBuf tb) → BufTy
  | .hbm, ⟨0, _⟩ => ⟨S64x512, .i32⟩
  | .hbm, ⟨1, _⟩ => ⟨S64x512x16, .i32⟩
  | .hbm, ⟨2, _⟩ => ⟨S64x512x16, .i32⟩
  | .hbm, ⟨3, _⟩ => ⟨S5000x256, .f32⟩
  | .hbm, ⟨4, _⟩ => ⟨S24990002x1, .f32⟩
  | .hbm, ⟨5, _⟩ => ⟨S5000x1, .f32⟩
  | .hbm, ⟨6, _⟩ => ⟨S20x256, .f32⟩
  | .hbm, ⟨7, _⟩ => ⟨S20, .f32⟩
  | .hbm, ⟨8, _⟩ => ⟨S_, .i32⟩
  | .hbm, ⟨9, _⟩ => ⟨S64x512x16, .i32⟩
  | .hbm, ⟨10, _⟩ => ⟨S64x512x16, .i1⟩
  | .hbm, ⟨11, _⟩ => ⟨S_, .i32⟩
  | .hbm, ⟨12, _⟩ => ⟨S64x512x16, .i32⟩
  | .hbm, ⟨13, _⟩ => ⟨S64x512x16, .i32⟩
  | .hbm, ⟨14, _⟩ => ⟨S64x512x16, .i32⟩
  | .hbm, ⟨15, _⟩ => ⟨S64x512x16x1, .i32⟩
  | .hbm, ⟨16, _⟩ => ⟨S64x512x16x256, .f32⟩
  | .hbm, ⟨17, _⟩ => ⟨S_, .i32⟩
  | .hbm, ⟨18, _⟩ => ⟨S64x512x16, .i32⟩
  | .hbm, ⟨19, _⟩ => ⟨S64x512x16, .i1⟩
  | .hbm, ⟨20, _⟩ => ⟨S_, .i32⟩
  | .hbm, ⟨21, _⟩ => ⟨S64x512x16, .i32⟩
  | .hbm, ⟨22, _⟩ => ⟨S64x512x16, .i32⟩
  | .hbm, ⟨23, _⟩ => ⟨S64x512x16, .i32⟩
  | .hbm, ⟨24, _⟩ => ⟨S64x512x16x1, .i32⟩
  | .hbm, ⟨25, _⟩ => ⟨S64x512x16x1, .f32⟩
  | .hbm, ⟨26, _⟩ => ⟨S64x512x16x256, .f32⟩
  | .hbm, ⟨27, _⟩ => ⟨S64x512x16x256, .f32⟩
  | .hbm, ⟨28, _⟩ => ⟨S_, .f32⟩
  | .hbm, ⟨29, _⟩ => ⟨S64x512x256, .f32⟩
  | .hbm, ⟨30, _⟩ => ⟨S_, .i32⟩
  | .hbm, ⟨31, _⟩ => ⟨S64x512, .i32⟩
  | .hbm, ⟨32, _⟩ => ⟨S64x512, .i1⟩
  | .hbm, ⟨33, _⟩ => ⟨S_, .i32⟩
  | .hbm, ⟨34, _⟩ => ⟨S64x512, .i32⟩
  | .hbm, ⟨35, _⟩ => ⟨S64x512, .i32⟩
  | .hbm, ⟨36, _⟩ => ⟨S64x512, .i32⟩
  | .hbm, ⟨37, _⟩ => ⟨S64x512x1, .i32⟩
  | .hbm, ⟨38, _⟩ => ⟨S64x512x256, .f32⟩
  | .hbm, ⟨39, _⟩ => ⟨S_, .i32⟩
  | .hbm, ⟨40, _⟩ => ⟨S64x512, .i32⟩
  | .hbm, ⟨41, _⟩ => ⟨S64x512, .i1⟩
  | .hbm, ⟨42, _⟩ => ⟨S_, .i32⟩
  | .hbm, ⟨43, _⟩ => ⟨S64x512, .i32⟩
  | .hbm, ⟨44, _⟩ => ⟨S64x512, .i32⟩
  | .hbm, ⟨45, _⟩ => ⟨S64x512, .i32⟩
  | .hbm, ⟨46, _⟩ => ⟨S64x512x1, .i32⟩
  | .hbm, ⟨47, _⟩ => ⟨S64x512x1, .f32⟩
  | .hbm, ⟨48, _⟩ => ⟨S_, .f32⟩
  | .hbm, ⟨49, _⟩ => ⟨S64x512x1, .f32⟩
  | .hbm, ⟨50, _⟩ => ⟨S64x512x1, .f32⟩
  | .hbm, ⟨51, _⟩ => ⟨S64x512x256, .f32⟩
  | .hbm, ⟨52, _⟩ => ⟨S64x512x256, .f32⟩
  | .hbm, ⟨53, _⟩ => ⟨S64x512x256, .f32⟩
  | .hbm, ⟨54, _⟩ => ⟨S64x512x256, .f32⟩
  | .hbm, ⟨55, _⟩ => ⟨S64x512x256, .f32⟩
  | .hbm, ⟨56, _⟩ => ⟨S_, .f32⟩
  | .hbm, ⟨57, _⟩ => ⟨S64x256, .f32⟩
  | .hbm, ⟨58, _⟩ => ⟨S256x20, .f32⟩
  | .hbm, ⟨59, _⟩ => ⟨S64x20, .f32⟩
  | .hbm, ⟨60, _⟩ => ⟨S1x20, .f32⟩
  | .hbm, ⟨61, _⟩ => ⟨S64x20, .f32⟩
  | .hbm, ⟨62, _⟩ => ⟨S64x20, .f32⟩
  | .hbm, ⟨63, _⟩ => ⟨S_, .f32⟩
  | .hbm, ⟨64, _⟩ => ⟨S64x20, .f32⟩
  | .hbm, ⟨65, _⟩ => ⟨S64x20, .f32⟩
  | .hbm, ⟨66, _⟩ => ⟨S_, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64x1, .f32⟩
  | .hbm, ⟨72, _⟩ => ⟨S64x20, .f32⟩
  | .hbm, ⟨73, _⟩ => ⟨S64x20, .f32⟩
  | .hbm, ⟨74, _⟩ => ⟨S64x20, .f32⟩
  | .hbm, ⟨75, _⟩ => ⟨S_, .f32⟩
  | .hbm, ⟨76, _⟩ => ⟨S64, .f32⟩
  | .hbm, ⟨77, _⟩ => ⟨S64x1, .f32⟩
  | .hbm, ⟨78, _⟩ => ⟨S64x1, .f32⟩
  | .hbm, ⟨79, _⟩ => ⟨S64x20, .f32⟩
  | .hbm, ⟨80, _⟩ => ⟨S64x20, .f32⟩
  | _, _ => ⟨S64x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_call1_cst : Ref sig .tc := ⟨.hbm, 66, rfl⟩
abbrev main_call1_v0 : Ref sig .tc := ⟨.hbm, 67, rfl⟩
abbrev main_call1_cst_0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_cst_1 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_v45 : Ref sig .tc := ⟨.hbm, 80, rfl⟩

abbrev nD : Nat := 1
abbrev τ : Topo := Topo.v7x

variable {F : FTy → Type} [FloatOps F]

class Facts₀ : Prop where
  bcast_S_S64x512x16 : S_.BroadcastsInDim S64x512x16 (![] : Fin 0 → Fin S64x512x16.rank)
  bcast_S64x512x16_S64x512x16x1_0_1_2 : S64x512x16.BroadcastsInDim S64x512x16x1 (![0, 1, 2] : Fin 3 → Fin S64x512x16x1.rank)
  bcast_S64x512x16x1_S64x512x16x256_0_1_2_3 : S64x512x16x1.BroadcastsInDim S64x512x16x256 (![0, 1, 2, 3] : Fin 4 → Fin S64x512x16x256.rank)
  reducesTo_S64x512x16x256_S64x512x256_d2 : S64x512x16x256.ReducesTo [2] S64x512x256
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x256_0_1_2 : S64x512x1.BroadcastsInDim S64x512x256 (![0, 1, 2] : Fin 3 → Fin S64x512x256.rank)
  reducesTo_S64x512x256_S64x256_d1 : S64x512x256.ReducesTo [1] S64x256
  transposes_S20x256_S256x20_1_0 : S20x256.Transposes [1, 0] S256x20
  bcast_S20_S1x20_1 : S20.BroadcastsInDim S1x20 (![1] : Fin 1 → Fin S1x20.rank)
  bcast_S1x20_S64x20_0_1 : S1x20.BroadcastsInDim S64x20 (![0, 1] : Fin 2 → Fin S64x20.rank)
  bcast_S_S64x20 : S_.BroadcastsInDim S64x20 (![] : Fin 0 → Fin S64x20.rank)
  reducesTo_S64x20_S64_d1 : S64x20.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x20_0_1 : S64x1.BroadcastsInDim S64x20 (![0, 1] : Fin 2 → Fin S64x20.rank)
  gather_S5000x256_S64x512x16x1_S64x512x16x256_3_0_n_n_0_3_1256_wf : GatherDims.WF S5000x256 S64x512x16x1 S64x512x16x256 [3] [0] [] [0] [] 3 ![1, 256]
  gather_S24990002x1_S64x512x16x1_S64x512x16x1_3_0_n_n_0_3_11_wf : GatherDims.WF S24990002x1 S64x512x16x1 S64x512x16x1 [3] [0] [] [0] [] 3 ![1, 1]
  gather_S5000x256_S64x512x1_S64x512x256_2_0_n_n_0_2_1256_wf : GatherDims.WF S5000x256 S64x512x1 S64x512x256 [2] [0] [] [0] [] 2 ![1, 256]
  gather_S5000x1_S64x512x1_S64x512x1_2_0_n_n_0_2_11_wf : GatherDims.WF S5000x1 S64x512x1 S64x512x1 [2] [0] [] [0] [] 2 ![1, 1]
  dot_S64x256_S256x20_S64x20_1_0_0_1_n_n_wf : DotDims.WF S64x256 S256x20 S64x20 [1] [0] [0] [1] [] []

variable [Facts₀]

def gather_S5000x256_S64x512x16x1_S64x512x16x256_3_0_n_n_0_3_1256 : GatherDims S5000x256 S64x512x16x1 S64x512x16x256 where
  offsetDims := [3]
  collapsedSliceDims := [0]
  operandBatchingDims := []
  startIndicesBatchingDims := []
  startIndexMap := [0]
  indexVectorDim := 3
  sliceSizes := ![1, 256]
  wf := gather_S5000x256_S64x512x16x1_S64x512x16x256_3_0_n_n_0_3_1256_wf
def gather_S24990002x1_S64x512x16x1_S64x512x16x1_3_0_n_n_0_3_11 : GatherDims S24990002x1 S64x512x16x1 S64x512x16x1 where
  offsetDims := [3]
  collapsedSliceDims := [0]
  operandBatchingDims := []
  startIndicesBatchingDims := []
  startIndexMap := [0]
  indexVectorDim := 3
  sliceSizes := ![1, 1]
  wf := gather_S24990002x1_S64x512x16x1_S64x512x16x1_3_0_n_n_0_3_11_wf
def gather_S5000x256_S64x512x1_S64x512x256_2_0_n_n_0_2_1256 : GatherDims S5000x256 S64x512x1 S64x512x256 where
  offsetDims := [2]
  collapsedSliceDims := [0]
  operandBatchingDims := []
  startIndicesBatchingDims := []
  startIndexMap := [0]
  indexVectorDim := 2
  sliceSizes := ![1, 256]
  wf := gather_S5000x256_S64x512x1_S64x512x256_2_0_n_n_0_2_1256_wf
def gather_S5000x1_S64x512x1_S64x512x1_2_0_n_n_0_2_11 : GatherDims S5000x1 S64x512x1 S64x512x1 where
  offsetDims := [2]
  collapsedSliceDims := [0]
  operandBatchingDims := []
  startIndicesBatchingDims := []
  startIndexMap := [0]
  indexVectorDim := 2
  sliceSizes := ![1, 1]
  wf := gather_S5000x1_S64x512x1_S64x512x1_2_0_n_n_0_2_11_wf
def dot_S64x256_S256x20_S64x20_1_0_0_1_n_n : DotDims S64x256 S256x20 S64x20 where
  lhsContracting := [1]
  rhsContracting := [0]
  lhsNonContracting := [0]
  rhsNonContracting := [1]
  lhsBatch := []
  rhsBatch := []
  wf := dot_S64x256_S256x20_S64x20_1_0_0_1_n_n_wf

class Facts : Prop extends Facts₀ where

variable [Facts]
-- ==== Proof.RealEntries.lean ====
/-
  Extended reals that are real numbers, and the operations that keep them so.

  A sum, difference, product or maximum of real numbers is a real number; so is a finite sum of them, and the
  maximum of a nonempty finite family of them taken from `⊥` upward. These are the facts that carry "every input is
  finite" through a chain of additions, products and maxima to "this intermediate value is finite".
-/
import Mathlib.Data.EReal.Operations
import Mathlib.Algebra.BigOperators.Group.Finset.Basic
import Mathlib.Data.Finset.Fold
import Mathlib.Data.Finset.Lattice.Fold

open scoped BigOperators

namespace Cert.RealEntries

/-- An extended real that is (the image of) a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sup2 {x y : EReal} (hx : IsReal x) (hy : IsReal y) : IsReal (max x y) := by
  rcases max_choice x y with h | h <;> rw [h] <;> assumption

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The maximum, taken from `⊥` upward, of a nonempty finite family of real numbers is one of them: a real number. -/
theorem IsReal.foldMax {ι : Type*} (s : Finset ι) (hs : s.Nonempty) (f : ι → EReal) (h : ∀ i ∈ s, IsReal (f i)) :
    IsReal (s.fold max ⊥ f) := by
  have e : s.fold max ⊥ f = s.sup f := rfl
  rw [e]
  obtain ⟨i, hi, hsup⟩ := Finset.exists_mem_eq_sup s hs f
  rw [hsup]
  exact h i hi

end Cert.RealEntries
-- ==== Proof.ShiftAlgebra.lean ====
/-
  The one law that joins the two spellings of a log-softmax on the extended reals.

  One program subtracts from an entry `x` the sum `m + L` of the row's maximum `m` and the logarithm `L`
  of the row's shifted exponential sum; the other subtracts `m` first and `L` afterwards. On the extended
  reals `-(m + L) = -m - L` can fail when `m` is infinite (`⊤ + ⊥`), and holds for every `L` as soon as
  `m` is a real number; nothing is asked of `x` or of `L`.
-/
import Mathlib.Data.EReal.Operations

namespace Cert.ShiftAlgebra

/-- `x - (m + L) = x - m - L` on the extended reals when `m` is a real number. -/
theorem sub_add_real (x L : EReal) (m : ℝ) : x - ((m : EReal) + L) = x - (m : EReal) - L := by
  rw [sub_eq_add_neg, EReal.neg_add (Or.inl (EReal.coe_ne_bot m)) (Or.inl (EReal.coe_ne_top m)),
    sub_eq_add_neg (-(m : EReal)) L, ← add_assoc, ← sub_eq_add_neg, ← sub_eq_add_neg]

end Cert.ShiftAlgebra
-- ==== Proof.Spec.lean ====
/-
  The function both programs compute, index by index, on the extended reals.

  From six arrays — `Ra b s j d` (the embedding of neighbour `j` of position `s` of batch row `b`, feature `d`),
  `Ea b s j` (that neighbour's edge weight), `Rn b s d` (the position's own embedding), `Nn b s` (its node weight),
  `W g k` (the classifier's weights) and `bias g` —:

    nbrMax b s d = max over the 16 neighbours j of  Ra b s j d · Ea b s j                 (from -∞ upward)
    mix    b s d = (1 - Nn b s) · nbrMax b s d + Nn b s · Rn b s d
    pool   b d   = the sum over the 512 positions s of  mix b s d
    logit  b g   = (the sum over the 256 features k of  pool b k · W g k) + bias g
    act    b g   = max (logit b g) 0
    rowMax b     = max over the 20 classes g of  act b g                                   (from -∞ upward)
    lse    b     = log (the sum over g of  exp (act b g - rowMax b))
    out    b g   = act b g - rowMax b - lse b              -- subtract the maximum, then the logarithm
    outK   b g   = act b g - (rowMax b + lse b)            -- subtract their sum

  `out` and `outK` are the two spellings of a log-softmax; they agree as soon as the row's maximum is a real number
  (`outK_eq_out`), which it is when all six arrays hold real numbers (`rowMax_real`). The float literals stay the
  patterns the programs print (`one`, `zero`, `negInf`); their values (`1`, `0`, `⊥`) are `one_eq`, `zero_eq`, `negInf_eq`.
  The sum over the 512 positions taken in 4 runs of 128 is the same sum (`sum_tiles`).
-/
import Idealize.ShloMosaic.PureOps.Ideal
import Idealize.ShloMosaic.PureOps.Ideal.Laws
import Idealize.ShloMosaic.Lib.ValueIdx
import proofs.«146202_j41832981463504_2_alg».proof.Proof.RealEntries
import proofs.«146202_j41832981463504_2_alg».proof.Proof.ShiftAlgebra

open scoped BigOperators

noncomputable section

namespace Cert.Spec

open Idealize.ShloMosaic Idealize.ShloMosaic.ValueIdx Cert.RealEntries

/-- The f32 patterns of `1.0`, `0.0` and `-∞` at the ideal values. -/
abbrev one : EReal := Ideal.ofBits .f32 0x3F800000#32
abbrev zero : EReal := Ideal.ofBits .f32 0x00000000#32
abbrev negInf : EReal := Ideal.ofBits .f32 0xFF800000#32

theorem zero_eq : zero = 0 := Ideal.ofBits_zero_f32
theorem negInf_eq : negInf = ⊥ := by simp [negInf, Ideal.ofBits, Ideal.ieee]
theorem one_eq : one = 1 := by
  simp [one, Ideal.ofBits, Ideal.ieee, -EReal.coe_mul]; norm_num

section Curried

variable (Ra : Fin 64 → Fin 512 → Fin 16 → Fin 256 → EReal) (Ea : Fin 64 → Fin 512 → Fin 16 → EReal)
  (Rn : Fin 64 → Fin 512 → Fin 256 → EReal) (Nn : Fin 64 → Fin 512 → EReal)
  (W : Fin 20 → Fin 256 → EReal) (bias : Fin 20 → EReal)

def nbrMax (b : Fin 64) (s : Fin 512) (d : Fin 256) : EReal :=
  (Finset.univ : Finset (Fin 16)).fold max negInf fun j => Ra b s j d * Ea b s j

def mix (b : Fin 64) (s : Fin 512) (d : Fin 256) : EReal :=
  (one - Nn b s) * nbrMax Ra Ea b s d + Nn b s * Rn b s d

def pool (b : Fin 64) (d : Fin 256) : EReal := ∑ s : Fin 512, mix Ra Ea Rn Nn b s d

def logit (b : Fin 64) (g : Fin 20) : EReal := (∑ k : Fin 256, pool Ra Ea Rn Nn b k * W g k) + bias g

def act (b : Fin 64) (g : Fin 20) : EReal := max (logit Ra Ea Rn Nn W bias b g) zero

def rowMax (b : Fin 64) : EReal := (Finset.univ : Finset (Fin 20)).fold max negInf fun g => act Ra Ea Rn Nn W bias b g

def lse (b : Fin 64) : EReal :=
  Ideal.log (∑ g : Fin 20, Ideal.exp (act Ra Ea Rn Nn W bias b g - rowMax Ra Ea Rn Nn W bias b))

def out (b : Fin 64) (g : Fin 20) : EReal :=
  act Ra Ea Rn Nn W bias b g - rowMax Ra Ea Rn Nn W bias b - lse Ra Ea Rn Nn W bias b

def outK (b : Fin 64) (g : Fin 20) : EReal :=
  act Ra Ea Rn Nn W bias b g - (rowMax Ra Ea Rn Nn W bias b + lse Ra Ea Rn Nn W bias b)

end Curried

/-- The arrays as the programs hold them, by shape, read at coordinates. -/
abbrev SRa : Shape := ⟨4, ![64, 512, 16, 256]⟩
abbrev SEa : Shape := ⟨4, ![64, 512, 16, 1]⟩
abbrev SRn : Shape := ⟨3, ![64, 512, 256]⟩
abbrev SNn : Shape := ⟨3, ![64, 512, 1]⟩
abbrev SW : Shape := ⟨2, ![20, 256]⟩
abbrev SB : Shape := ⟨1, ![20]⟩
abbrev SOut : Shape := ⟨2, ![64, 20]⟩

section Arrays

variable (A : SRa.Idx → EReal) (E : SEa.Idx → EReal) (R : SRn.Idx → EReal) (N : SNn.Idx → EReal)
  (W : SW.Idx → EReal) (B : SB.Idx → EReal)

abbrev cRa : Fin 64 → Fin 512 → Fin 16 → Fin 256 → EReal := fun b s j d => A (ix4 b s j d)
abbrev cEa : Fin 64 → Fin 512 → Fin 16 → EReal := fun b s j => E (ix4 b s j 0)
abbrev cRn : Fin 64 → Fin 512 → Fin 256 → EReal := fun b s d => R (ix3 b s d)
abbrev cNn : Fin 64 → Fin 512 → EReal := fun b s => N (ix3 b s 0)
abbrev cW : Fin 20 → Fin 256 → EReal := fun g k => W (ix2 g k)
abbrev cB : Fin 20 → EReal := fun g => B (ix1 g)

/-- The result array, subtracting the maximum and then the logarithm. -/
def outOf : SOut.Idx → EReal :=
  fun i => out (cRa A) (cEa E) (cRn R) (cNn N) (cW W) (cB B) (i 0) (i 1)

/-- The result array, subtracting the sum of the maximum and the logarithm. -/
def outKOf : SOut.Idx → EReal :=
  fun i => outK (cRa A) (cEa E) (cRn R) (cNn N) (cW W) (cB B) (i 0) (i 1)

end Arrays

/-! ## A sum taken in runs -/

/-- A sum over the numbers below `a · b` taken in `a` runs of `b` consecutive numbers is the same sum. -/
theorem sum_tiles {M : Type*} [AddCommMonoid M] (f : ℕ → M) (b : ℕ) :
    ∀ a : ℕ, ∑ k ∈ Finset.range a, ∑ s ∈ Finset.range b, f (b * k + s) = ∑ n ∈ Finset.range (a * b), f n
  | 0 => by simp
  | a + 1 => by
    rw [Finset.sum_range_succ, sum_tiles f b a, Nat.add_mul, Nat.one_mul, Finset.sum_range_add, Nat.mul_comm b a]

/-! ## Real inputs give real intermediate values -/

section Real

open Cert.RealEntries

variable (Ra : Fin 64 → Fin 512 → Fin 16 → Fin 256 → EReal) (Ea : Fin 64 → Fin 512 → Fin 16 → EReal)
  (Rn : Fin 64 → Fin 512 → Fin 256 → EReal) (Nn : Fin 64 → Fin 512 → EReal)
  (W : Fin 20 → Fin 256 → EReal) (bias : Fin 20 → EReal)
  (hA : ∀ b s j d, IsReal (Ra b s j d)) (hE : ∀ b s j, IsReal (Ea b s j)) (hR : ∀ b s d, IsReal (Rn b s d))
  (hN : ∀ b s, IsReal (Nn b s)) (hW : ∀ g k, IsReal (W g k)) (hB : ∀ g, IsReal (bias g))

theorem one_real : IsReal one := by rw [one_eq]; exact IsReal.one
theorem zero_real : IsReal zero := by rw [zero_eq]; exact IsReal.zero

include hA hE in
theorem nbrMax_real (b : Fin 64) (s : Fin 512) (d : Fin 256) : IsReal (nbrMax Ra Ea b s d) := by
  unfold nbrMax
  rw [negInf_eq]
  exact IsReal.foldMax _ ⟨(0 : Fin 16), Finset.mem_univ _⟩ _ fun j _ => (hA b s j d).mul (hE b s j)

include hA hE hR hN in
theorem mix_real (b : Fin 64) (s : Fin 512) (d : Fin 256) : IsReal (mix Ra Ea Rn Nn b s d) :=
  ((one_real.sub (hN b s)).mul (nbrMax_real Ra Ea hA hE b s d)).add ((hN b s).mul (hR b s d))

include hA hE hR hN in
theorem pool_real (b : Fin 64) (d : Fin 256) : IsReal (pool Ra Ea Rn Nn b d) :=
  IsReal.sum _ _ fun s _ => mix_real Ra Ea Rn Nn hA hE hR hN b s d

include hA hE hR hN hW hB in
theorem logit_real (b : Fin 64) (g : Fin 20) : IsReal (logit Ra Ea Rn Nn W bias b g) :=
  (IsReal.sum _ _ fun k _ => (pool_real Ra Ea Rn Nn hA hE hR hN b k).mul (hW g k)).add (hB g)

include hA hE hR hN hW hB in
theorem act_real (b : Fin 64) (g : Fin 20) : IsReal (act Ra Ea Rn Nn W bias b g) :=
  (logit_real Ra Ea Rn Nn W bias hA hE hR hN hW hB b g).sup2 zero_real

include hA hE hR hN hW hB in
/-- The row's maximum is one of the row's entries: a real number. -/
theorem rowMax_real (b : Fin 64) : IsReal (rowMax Ra Ea Rn Nn W bias b) := by
  unfold rowMax
  rw [negInf_eq]
  exact IsReal.foldMax _ ⟨(0 : Fin 20), Finset.mem_univ _⟩ _ fun g _ => act_real Ra Ea Rn Nn W bias hA hE hR hN hW hB b g

include hA hE hR hN hW hB in
/-- With real inputs the two spellings of the log-softmax agree: the row's maximum is a real number. -/
theorem outK_eq_out (b : Fin 64) (g : Fin 20) : outK Ra Ea Rn Nn W bias b g = out Ra Ea Rn Nn W bias b g := by
  obtain ⟨r, hr⟩ := rowMax_real Ra Ea Rn Nn W bias hA hE hR hN hW hB b
  unfold outK out
  rw [hr]
  exact Cert.ShiftAlgebra.sub_add_real _ _ r

end Real

/-- The same for the arrays by shape. -/
theorem outKOf_eq_outOf (A : SRa.Idx → EReal) (E : SEa.Idx → EReal) (R : SRn.Idx → EReal) (N : SNn.Idx → EReal)
    (W : SW.Idx → EReal) (B : SB.Idx → EReal) (hA : ∀ i, Cert.RealEntries.IsReal (A i)) (hE : ∀ i, Cert.RealEntries.IsReal (E i))
    (hR : ∀ i, Cert.RealEntries.IsReal (R i)) (hN : ∀ i, Cert.RealEntries.IsReal (N i)) (hW : ∀ i, Cert.RealEntries.IsReal (W i))
    (hB : ∀ i, Cert.RealEntries.IsReal (B i)) : outKOf A E R N W B = outOf A E R N W B :=
  funext fun i => outK_eq_out (cRa A) (cEa E) (cRn R) (cNn N) (cW W) (cB B) (fun _ _ _ _ => hA _) (fun _ _ _ => hE _)
    (fun _ _ _ => hR _) (fun _ _ => hN _) (fun _ _ => hW _) (fun _ => hB _) (i 0) (i 1)

end Cert.Spec

end
-- ==== Proof.CaseValues.lean ====
/-
  What each control case of the kernel's body leaves behind, as the body's own arithmetic.

  The body keeps a [16,256] accumulator in scratch memory across the four sequence tiles of one batch tile. At the
  first tile it stores zeros and then the zeros plus the tile's pooled sum; at the other tiles the accumulator it
  found plus the tile's pooled sum; at the last tile it also stores the output block computed from the accumulator it
  has just written. Each store covers its whole buffer, so what a case leaves is that store's value: the scratch
  ends at `k0_pay3` of the four input blocks and the accumulator found (zeros, `k0_pay2`, at the first tile), and the
  last tile's output block is `k0_pay1` of that new accumulator, the weight block and the bias block.
-/
import proofs.«146202_j41832981463504_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.CaseValues

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A middle tile: the scratch ends at the accumulator found plus the tile's pooled sum. -/
theorem scratch_B (c : Dev nD) (i : grid0.Coords) (arg2 : Memref sig .tc .vmem S16x128x16x256 .bf16) (harg2 : arg2.IsWhole) (arg3 : Memref sig .tc .vmem S16x128x16 .f32) (harg3 : arg3.IsWhole) (arg4 : Memref sig .tc .vmem S16x128x256 .bf16) (harg4 : arg4.IsWhole) (arg5 : Memref sig .tc .vmem S16x128x1 .f32) (harg5 : arg5.IsWhole) (arg6 : Memref sig .tc .vmem S256x20 .f32) (harg6 : arg6.IsWhole) (arg7 : Memref sig .tc .vmem S1x20 .f32) (harg7 : arg7.IsWhole) (arg8 : Memref sig .tc .vmem S16x20 .f32) (harg8 : arg8.IsWhole) (arg9 : Memref sig .tc .vmem S16x256 .f32) (harg9 : arg9.IsWhole) (hc0 : ¬cond0_0 i) (hc1 : ¬cond0_1 i) (x0 : Vec F S16x128x16x256 .bf16) (x1 : Vec F S16x128x16 .f32) (x2 : Vec F S16x128x256 .bf16) (x3 : Vec F S16x128x1 .f32) (x4 : Vec F S256x20 .f32) (x5 : Vec F S1x20 .f32) (xs0 : Vec F S16x256 .f32) :
    sout0_B_0 c i arg2 harg2 arg3 harg3 arg4 harg4 arg5 harg5 arg6 harg6 arg7 harg7 arg8 harg8 arg9 harg9 hc0 hc1 x0 x1 x2 x3 x4 x5 xs0 = k0_pay3 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  rw [View.canon_unit_zero hz2]
  simp only [View.readAt_eq_ld, harg2.read_unread, harg3.read_unread, harg4.read_unread, harg5.read_unread, harg9.read_unread,
    View.ld_unit_zero (S := S16x128x16x256) hz4, View.ld_unit_zero (S := S16x128x16) hz3, View.ld_unit_zero (S := S16x128x256) hz3,
    View.ld_unit_zero (S := S16x128x1) hz3, View.ld_unit_zero (S := S16x256) hz2]

/-- The first tile: the zeros are stored and read back, and the scratch ends at zeros plus the tile's pooled sum. -/
theorem scratch_A (c : Dev nD) (i : grid0.Coords) (arg2 : Memref sig .tc .vmem S16x128x16x256 .bf16) (harg2 : arg2.IsWhole) (arg3 : Memref sig .tc .vmem S16x128x16 .f32) (harg3 : arg3.IsWhole) (arg4 : Memref sig .tc .vmem S16x128x256 .bf16) (harg4 : arg4.IsWhole) (arg5 : Memref sig .tc .vmem S16x128x1 .f32) (harg5 : arg5.IsWhole) (arg6 : Memref sig .tc .vmem S256x20 .f32) (harg6 : arg6.IsWhole) (arg7 : Memref sig .tc .vmem S1x20 .f32) (harg7 : arg7.IsWhole) (arg8 : Memref sig .tc .vmem S16x20 .f32) (harg8 : arg8.IsWhole) (arg9 : Memref sig .tc .vmem S16x256 .f32) (harg9 : arg9.IsWhole) (hc0 : cond0_0 i) (hc1 : ¬cond0_1 i) (x0 : Vec F S16x128x16x256 .bf16) (x1 : Vec F S16x128x16 .f32) (x2 : Vec F S16x128x256 .bf16) (x3 : Vec F S16x128x1 .f32) (x4 : Vec F S256x20 .f32) (x5 : Vec F S1x20 .f32) :
    sout0_A_0 c i arg2 harg2 arg3 harg3 arg4 harg4 arg5 harg5 arg6 harg6 arg7 harg7 arg8 harg8 arg9 harg9 hc0 hc1 x0 x1 x2 x3 x4 x5 = k0_pay3 x0 x1 x2 x3 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S16x256) hz2, View.readCov_unit_zero (S := S16x256) _ hz2]
  simp only [View.readAt_eq_ld, harg2.read_unread, harg3.read_unread, harg4.read_unread, harg5.read_unread,
    View.ld_unit_zero (S := S16x128x16x256) hz4, View.ld_unit_zero (S := S16x128x16) hz3, View.ld_unit_zero (S := S16x128x256) hz3,
    View.ld_unit_zero (S := S16x128x1) hz3, View.ld_unit_zero (S := S16x256) hz2]

/-- The last tile: the scratch again ends at the accumulator found plus the tile's pooled sum; -/
theorem scratch_C (c : Dev nD) (i : grid0.Coords) (arg2 : Memref sig .tc .vmem S16x128x16x256 .bf16) (harg2 : arg2.IsWhole) (arg3 : Memref sig .tc .vmem S16x128x16 .f32) (harg3 : arg3.IsWhole) (arg4 : Memref sig .tc .vmem S16x128x256 .bf16) (harg4 : arg4.IsWhole) (arg5 : Memref sig .tc .vmem S16x128x1 .f32) (harg5 : arg5.IsWhole) (arg6 : Memref sig .tc .vmem S256x20 .f32) (harg6 : arg6.IsWhole) (arg7 : Memref sig .tc .vmem S1x20 .f32) (harg7 : arg7.IsWhole) (arg8 : Memref sig .tc .vmem S16x20 .f32) (harg8 : arg8.IsWhole) (arg9 : Memref sig .tc .vmem S16x256 .f32) (harg9 : arg9.IsWhole) (hc0 : ¬cond0_0 i) (hc1 : cond0_1 i) (x0 : Vec F S16x128x16x256 .bf16) (x1 : Vec F S16x128x16 .f32) (x2 : Vec F S16x128x256 .bf16) (x3 : Vec F S16x128x1 .f32) (x4 : Vec F S256x20 .f32) (x5 : Vec F S1x20 .f32) (xs0 : Vec F S16x256 .f32) :
    sout0_C_0 c i arg2 harg2 arg3 harg3 arg4 harg4 arg5 harg5 arg6 harg6 arg7 harg7 arg8 harg8 arg9 harg9 hc0 hc1 x0 x1 x2 x3 x4 x5 xs0 = k0_pay3 x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2]
  simp only [View.readAt_eq_ld, harg2.read_unread, harg3.read_unread, harg4.read_unread, harg5.read_unread, harg9.read_unread,
    View.ld_unit_zero (S := S16x128x16x256) hz4, View.ld_unit_zero (S := S16x128x16) hz3, View.ld_unit_zero (S := S16x128x256) hz3,
    View.ld_unit_zero (S := S16x128x1) hz3, View.ld_unit_zero (S := S16x256) hz2]

/-- and the output block is computed from that new accumulator (read back from the scratch), the weights and the bias. -/
theorem out_C (c : Dev nD) (i : grid0.Coords) (arg2 : Memref sig .tc .vmem S16x128x16x256 .bf16) (harg2 : arg2.IsWhole) (arg3 : Memref sig .tc .vmem S16x128x16 .f32) (harg3 : arg3.IsWhole) (arg4 : Memref sig .tc .vmem S16x128x256 .bf16) (harg4 : arg4.IsWhole) (arg5 : Memref sig .tc .vmem S16x128x1 .f32) (harg5 : arg5.IsWhole) (arg6 : Memref sig .tc .vmem S256x20 .f32) (harg6 : arg6.IsWhole) (arg7 : Memref sig .tc .vmem S1x20 .f32) (harg7 : arg7.IsWhole) (arg8 : Memref sig .tc .vmem S16x20 .f32) (harg8 : arg8.IsWhole) (arg9 : Memref sig .tc .vmem S16x256 .f32) (harg9 : arg9.IsWhole) (hc0 : ¬cond0_0 i) (hc1 : cond0_1 i) (x0 : Vec F S16x128x16x256 .bf16) (x1 : Vec F S16x128x16 .f32) (x2 : Vec F S16x128x256 .bf16) (x3 : Vec F S16x128x1 .f32) (x4 : Vec F S256x20 .f32) (x5 : Vec F S1x20 .f32) (xs0 : Vec F S16x256 .f32) :
    out0_C_6 c i arg2 harg2 arg3 harg3 arg4 harg4 arg5 harg5 arg6 harg6 arg7 harg7 arg8 harg8 arg9 harg9 hc0 hc1 x0 x1 x2 x3 x4 x5 xs0 = k0_pay1 (k0_pay3 x0 x1 x2 x3 xs0) x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2, View.readCov_unit_zero (S := S16x256) _ hz2]
  simp only [View.readAt_eq_ld, harg2.read_unread, harg3.read_unread, harg4.read_unread, harg5.read_unread, harg6.read_unread,
    harg7.read_unread, harg9.read_unread,
    View.ld_unit_zero (S := S16x128x16x256) hz4, View.ld_unit_zero (S := S16x128x16) hz3, View.ld_unit_zero (S := S16x128x256) hz3,
    View.ld_unit_zero (S := S16x128x1) hz3, View.ld_unit_zero (S := S16x256) hz2, View.ld_unit_zero (S := S256x20) hz2,
    View.ld_unit_zero (S := S1x20) hz2]

end Cert.KernelIdeal.CaseValues

end
-- ==== Proof.LibTrailingUnit.lean ====
/-
  Layout operations around a TRAILING unit axis, read at an index written by coordinates; general in the extents.

  A shape cast that appends or removes a last axis of extent one does not move an entry: row-major position
  `((p·b + s)·c + j)·1 + 0` is position `(p·b + s)·c + j`. A broadcast along a last axis of extent one repeats the one
  entry of that axis. Six forms:

    [a,b,c]   → [a,b,c,1]   cast       at (p,s,j,u)   is the operand at (p,s,j)
    [a,b,c,1] → [a,b,c]     cast       at (p,s,j)     is the operand at (p,s,j,0)
    [a,b,c,1] → [a,b,c,d]   broadcast  at (p,s,j,e)   is the operand at (p,s,j,0)
    [a,b,1]   → [a,b,c]     broadcast  at (p,s,e)     is the operand at (p,s,0)
    [a]       → [a,1]       cast       at (p,u)       is the operand at p
    [a,1]     → [a,b]       broadcast  at (p,g)       is the operand at (p,0)
-/
import Idealize.ShloMosaic.Lib.Pipeline.Value
import Idealize.ShloMosaic.Lib.ValueIdx

namespace Cert.Lib.TrailingUnit

open Idealize.ShloMosaic Idealize.ShloMosaic.ValueIdx

variable {α : Type}

/-- Appending a last unit axis to a rank-3 array keeps every entry where it was. -/
theorem cast_abc_abc1_apply {a b c : ℕ} (x : (⟨3, ![a, b, c]⟩ : Shape).Idx → α)
    (h : (⟨3, ![a, b, c]⟩ : Shape).ShapeCasts ⟨4, ![a, b, c, 1]⟩) (p : Fin a) (s : Fin b) (j : Fin c) (u : Fin 1) :
    shapeCast ⟨4, ![a, b, c, 1]⟩ x h (ix4 p s j u) = x (ix3 p s j) :=
  shapeCast_apply x h _ _ (by
    have hu : u.val = 0 := by omega
    rw [Shape.rowMajor_val_three, Shape.rowMajor_val_four]
    show (p.val * b + s.val) * c + j.val = ((p.val * b + s.val) * c + j.val) * 1 + u.val
    rw [hu, Nat.mul_one, Nat.add_zero])

/-- Removing the last unit axis of a rank-4 array keeps every entry where it was. -/
theorem cast_abc1_abc_apply {a b c : ℕ} (x : (⟨4, ![a, b, c, 1]⟩ : Shape).Idx → α)
    (h : (⟨4, ![a, b, c, 1]⟩ : Shape).ShapeCasts ⟨3, ![a, b, c]⟩) (p : Fin a) (s : Fin b) (j : Fin c) :
    shapeCast ⟨3, ![a, b, c]⟩ x h (ix3 p s j) = x (ix4 p s j (0 : Fin 1)) :=
  shapeCast_apply x h _ _ (by
    rw [Shape.rowMajor_val_three, Shape.rowMajor_val_four]
    show ((p.val * b + s.val) * c + j.val) * 1 + 0 = (p.val * b + s.val) * c + j.val
    rw [Nat.mul_one, Nat.add_zero])

/-- A rank-4 array with a last unit axis broadcast along that axis repeats its one entry there. -/
theorem bcast_abc1_abcd_apply {a b c d : ℕ} (x : (⟨4, ![a, b, c, 1]⟩ : Shape).Idx → α)
    (h : (⟨4, ![a, b, c, 1]⟩ : Shape).Broadcasts ⟨4, ![a, b, c, d]⟩) (p : Fin a) (s : Fin b) (j : Fin c) (e : Fin d) :
    broadcastTo ⟨4, ![a, b, c, d]⟩ x h (ix4 p s j e) = x (ix4 p s j (0 : Fin 1)) := by
  refine broadcastTo_apply x h (ix4 p s j e) (ix4 p s j (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ =>
    show j.val = if c = 1 then 0 else j.val
    split
    · have := j.isLt; omega
    · rfl
  | ⟨3, _⟩ => rfl

/-- A rank-3 array with a last unit axis broadcast along that axis repeats its one entry there. -/
theorem bcast_ab1_abc_apply {a b c : ℕ} (x : (⟨3, ![a, b, 1]⟩ : Shape).Idx → α)
    (h : (⟨3, ![a, b, 1]⟩ : Shape).Broadcasts ⟨3, ![a, b, c]⟩) (p : Fin a) (s : Fin b) (e : Fin c) :
    broadcastTo ⟨3, ![a, b, c]⟩ x h (ix3 p s e) = x (ix3 p s (0 : Fin 1)) := by
  refine broadcastTo_apply x h (ix3 p s e) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A vector set as a column keeps its entries: position `p·1 + 0` is position `p`. -/
theorem cast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column broadcast over `b` columns repeats each row's one entry. -/
theorem bcast_a1_ab_apply {a b : ℕ} (x : (⟨2, ![a, 1]⟩ : Shape).Idx → α) (h : (⟨2, ![a, 1]⟩ : Shape).Broadcasts ⟨2, ![a, b]⟩)
    (p : Fin a) (g : Fin b) : broadcastTo ⟨2, ![a, b]⟩ x h (ix2 p g) = x (ix2 p (0 : Fin 1)) := by
  refine broadcastTo_apply x h (ix2 p g) (ix2 p (0 : Fin 1)) fun ax => ?_
  match ax with
  | ⟨0, _⟩ =>
    show p.val = if a = 1 then 0 else p.val
    split
    · have := p.isLt; omega
    · rfl
  | ⟨1, _⟩ => rfl

end Cert.Lib.TrailingUnit
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.HeadValue.lean ====
/-
  The kernel's output block, read at an index on the extended reals.

  At the last tile of a batch tile the body multiplies the [16,256] accumulator by the [256,20] weight block (a sum
  over the 256 features into a zero accumulator), adds the bias row, floors at zero, and takes a log-softmax along
  each row: with `m` the row's maximum (from -∞ upward) and `L` the logarithm of the row's sum of `exp (x - m)`, the
  entry `x` becomes `x - (m + L)`. The block is factored here into the relu'd logits and the log-softmax of a
  block, each read at row `p` and class `g`; the row's maximum and the row's sum are kept as columns, a cast that
  does not move an entry, and broadcast back along the row.
-/
import proofs.«146202_j41832981463504_2_alg».proof.Proof.Gen.KernelIdeal.Skeleton
import proofs.«146202_j41832981463504_2_alg».proof.Proof.Spec
import proofs.«146202_j41832981463504_2_alg».proof.Proof.LibTrailingUnit
import proofs.«146202_j41832981463504_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.HeadValue

open Cert.KernelIdeal Cert.KernelIdeal.Gen Cert.KernelIdeal.Facts₀ Cert.KernelIdeal.Facts
open Idealize.ShloMosaic Idealize.ShloMosaic.ValueIdx Idealize.ShloMosaic.TcCoe
open Cert.Spec Cert.Lib.TrailingUnit

/-- A block's relu'd logits: the accumulator times the weight block, plus the bias row, floored at zero. -/
def reluLogits (acc : FVec Ideal S16x256 .f32) (w : FVec Ideal S256x20 .f32) (bb : FVec Ideal S1x20 .f32) : FVec Ideal S16x20 .f32 :=
  maximumf (addf (matmul (F := Ideal) dot_S16x256_S256x20_S16x20_1_0_0_1_n_n none acc w (constant (F := Ideal) S16x20 .f32 0x00000000#32))
    (broadcastTo S16x20 bb Facts₀.broadcasts_S1x20_S16x20)) (broadcast S16x20 (Scalar.ofBits (F := Ideal) .f32 0x00000000#32))

/-- Each row's maximum, kept as a column. -/
def rowMaxK (v : FVec Ideal S16x20 .f32) : FVec Ideal S16x1 .f32 :=
  shapeCast S16x1 (multiReduction (F := Ideal) .maximumf [1] S16 v 0xFF800000#32 Facts₀.reduces_S16x20_S16 (.inl rfl) rfl)
    Facts₀.shapeCasts_S16_S16x1

/-- Each row's sum, kept as a column. -/
def rowSumK (v : FVec Ideal S16x20 .f32) : FVec Ideal S16x1 .f32 :=
  shapeCast S16x1 (multiReduction (F := Ideal) .add [1] S16 v 0x00000000#32 Facts₀.reduces_S16x20_S16 (.inl rfl) rfl)
    Facts₀.shapeCasts_S16_S16x1

/-- The block's log-softmax as the kernel spells it: each entry minus (the row's maximum plus the logarithm of the
    row's sum of shifted exponentials). -/
def logSoftmaxK (v : FVec Ideal S16x20 .f32) : FVec Ideal S16x20 .f32 :=
  subf v (broadcastTo S16x20 (addf (rowMaxK v)
    (log (rowSumK (exp (subf v (broadcastTo S16x20 (rowMaxK v) Facts₀.broadcasts_S16x1_S16x20))))))
    Facts₀.broadcasts_S16x1_S16x20)

theorem pay1_eq (acc : FVec Ideal S16x256 .f32) (w : FVec Ideal S256x20 .f32) (bb : FVec Ideal S1x20 .f32) :
    k0_pay1 (F := Ideal) acc w bb = logSoftmaxK (reluLogits acc w bb) := by
  unfold k0_pay1 logSoftmaxK rowMaxK rowSumK reluLogits
  simp only [shapeCast_self]

/-- The relu'd logits at row `p`, class `g`. -/
def headAct (acc : FVec Ideal S16x256 .f32) (w : FVec Ideal S256x20 .f32) (bb : FVec Ideal S1x20 .f32) (p : Fin 16) (g : Fin 20) : EReal :=
  max ((∑ k : Fin 256, acc (ix2 p k) * w (ix2 k g)) + bb (ix2 (0 : Fin 1) g)) zero

theorem reluLogits_apply (acc : FVec Ideal S16x256 .f32) (w : FVec Ideal S256x20 .f32) (bb : FVec Ideal S1x20 .f32) (p : Fin 16) (g : Fin 20) :
    reluLogits acc w bb (ix2 p g) = headAct acc w bb p g := by
  unfold reluLogits headAct
  show max (_ + _) _ = _
  refine congrArg₂ (fun y z : EReal => max y z) (congrArg₂ (fun y z : EReal => y + z) ?_ ?_) rfl
  · exact Cert.PlainDot.matmul_zero_apply dot_S16x256_S256x20_S16x20_1_0_0_1_n_n rfl acc w p g
  · exact broadcastTo_1b_ab_apply bb _ p g

theorem rowMaxK_apply (v : FVec Ideal S16x20 .f32) (p : Fin 16) (u : Fin 1) :
    rowMaxK v (ix2 p u) = (Finset.univ : Finset (Fin 20)).fold max negInf fun g => v (ix2 p g) := by
  unfold rowMaxK
  rw [cast_a_a1_apply]
  refine (Ideal.multiReduction_maximumf_single _ _ _ _ _ (ix1 p)).trans ?_
  refine Finset.fold_congr fun (g : Fin 20) _ => ?_
  have e : (Facts₀.reduces_S16x20_S16).lift (ix1 p) g = ix2 p g :=
    funext fun a => Fin.ext (by match a with | ⟨0, _⟩ => rfl | ⟨1, _⟩ => rfl)
  show v ((Facts₀.reduces_S16x20_S16).lift (ix1 p) g) = _
  rw [e]

theorem rowSumK_apply (v : FVec Ideal S16x20 .f32) (p : Fin 16) (u : Fin 1) :
    rowSumK v (ix2 p u) = ∑ g : Fin 20, v (ix2 p g) := by
  unfold rowSumK
  rw [cast_a_a1_apply]
  refine (Ideal.multiReduction_add_single _ _ _ _ _ (ix1 p)).trans ?_
  refine Finset.sum_congr rfl fun (g : Fin 20) _ => ?_
  have e : (Facts₀.reduces_S16x20_S16).lift (ix1 p) g = ix2 p g :=
    funext fun a => Fin.ext (by match a with | ⟨0, _⟩ => rfl | ⟨1, _⟩ => rfl)
  rw [e]

theorem logSoftmaxK_apply (v : FVec Ideal S16x20 .f32) (p : Fin 16) (g : Fin 20) :
    logSoftmaxK v (ix2 p g)
      = v (ix2 p g) - (((Finset.univ : Finset (Fin 20)).fold max negInf fun g' => v (ix2 p g'))
          + Ideal.log (∑ g' : Fin 20, Ideal.exp (v (ix2 p g') - (Finset.univ : Finset (Fin 20)).fold max negInf fun g'' => v (ix2 p g'')))) := by
  unfold logSoftmaxK
  show v (ix2 p g) - _ = v (ix2 p g) - _
  refine congrArg (fun z : EReal => v (ix2 p g) - z) ?_
  rw [bcast_a1_ab_apply]
  show rowMaxK v (ix2 p 0) + Ideal.log (rowSumK _ (ix2 p 0)) = _
  rw [rowMaxK_apply, rowSumK_apply]
  refine congrArg (fun z : EReal => _ + Ideal.log z) ?_
  refine Finset.sum_congr rfl fun g' _ => ?_
  show Ideal.exp (v (ix2 p g') - _) = _
  refine congrArg (fun z : EReal => Ideal.exp (v (ix2 p g') - z)) ?_
  rw [bcast_a1_ab_apply, rowMaxK_apply]

/-- The output block at row `p`, class `g`. -/
theorem pay1_apply (acc : FVec Ideal S16x256 .f32) (w : FVec Ideal S256x20 .f32) (bb : FVec Ideal S1x20 .f32) (p : Fin 16) (g : Fin 20) :
    k0_pay1 (F := Ideal) acc w bb (ix2 p g)
      = headAct acc w bb p g - (((Finset.univ : Finset (Fin 20)).fold max negInf fun g' => headAct acc w bb p g')
          + Ideal.log (∑ g' : Fin 20, Ideal.exp (headAct acc w bb p g'
              - (Finset.univ : Finset (Fin 20)).fold max negInf fun g'' => headAct acc w bb p g''))) := by
  rw [pay1_eq, logSoftmaxK_apply]
  simp only [reluLogits_apply]

end Cert.KernelIdeal.HeadValue

end
-- ==== Proof.Blocks.lean ====
/-
  The arrays the kernel's region finds, and a staged block's entry as an entry of the whole array.

  Before the region the host gathers the neighbours' embeddings, their edge weights, the positions' own embeddings
  and their node weights out of the tables — the same four gathers, of the same index arithmetic, as the reference
  makes —, narrows two of them to sixteen bits (the identity on the extended reals), removes the edge weights' last
  unit axis, transposes the classifier's weights and sets the bias as a row. The region then walks a 4 × 4 grid:
  point `t` stages rows `16·(t/4) …` and positions `128·(t%4) …` of each gathered array, and the weights and the bias
  whole. So entry `(p, s, …)` of a staged block is entry `(16·(t/4) + p, 128·(t%4) + s, …)` of the gather.
-/
import proofs.«146202_j41832981463504_2_alg».proof.Proof.Gen.KernelIdeal.Frame
import proofs.«146202_j41832981463504_2_alg».proof.Proof.Gen.ReferenceIdeal.Read
import proofs.«146202_j41832981463504_2_alg».proof.Proof.LibTrailingUnit
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.Lib.TrailingUnit

variable (m : (ℓ : Loc nD τ sig) → Buf (Elt Ideal) ℓ)

/-! ## The index maps, decided once over the sixteen grid points

  Point `t` of the 4 × 4 grid is batch tile `t / 4`, sequence tile `t % 4`. The four gathered arrays are cut along both;
  the weights and the bias are one block each. -/

theorem idx0 : ∀ t : Fin cfg0.N, win0_0.index t 0 = t.val / 4 ∧ win0_0.index t 1 = t.val % 4 ∧ win0_0.index t 2 = 0 ∧ win0_0.index t 3 = 0 :=
  (by decide +kernel : ∀ t : Fin grid0.N, _)
theorem idx1 : ∀ t : Fin cfg0.N, win0_1.index t 0 = t.val / 4 ∧ win0_1.index t 1 = t.val % 4 ∧ win0_1.index t 2 = 0 :=
  (by decide +kernel : ∀ t : Fin grid0.N, _)
theorem idx2 : ∀ t : Fin cfg0.N, win0_2.index t 0 = t.val / 4 ∧ win0_2.index t 1 = t.val % 4 ∧ win0_2.index t 2 = 0 :=
  (by decide +kernel : ∀ t : Fin grid0.N, _)
theorem idx3 : ∀ t : Fin cfg0.N, win0_3.index t 0 = t.val / 4 ∧ win0_3.index t 1 = t.val % 4 ∧ win0_3.index t 2 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = t.val / 4 ∧ win0_6.index t 1 = 0 :=
  (by decide +kernel : ∀ t : Fin grid0.N, _)

/-! ## The arrays the region finds, as the host operations before it leave them

  The neighbours' embeddings and the positions' own embeddings are the reference's own gathers (the narrowing to
  sixteen bits is the identity on the extended reals); the edge weights are the reference's gather with its last unit
  axis removed; the node weights are the reference's gather; the weights are the transposed argument and the bias the
  argument set as a row. -/

theorem V_v7 (c : Dev nD) : (V m c main_v7 : S64x512x16x256.Idx → EReal) = Cert.ReferenceIdeal.Read.val_main_v6 (F := Ideal) (m ((c : Thread nD τ).loc main_arg1)) (m ((c : Thread nD τ).loc main_arg3)) := by
  dsimp only [Gen.V, Gen.hostOps0]
  after_results
  rfl

theorem V_v23 (c : Dev nD) : (V m c main_v23 : S64x512x16.Idx → EReal)
    = shapeCast S64x512x16 (Cert.ReferenceIdeal.Read.val_main_v13 (F := Ideal) (m ((c : Thread nD τ).loc main_arg2)) (m ((c : Thread nD τ).loc main_arg4))) Facts₀.shapeCasts_S64x512x16x1_S64x512x16 := by
  dsimp only [Gen.V, Gen.hostOps0]
  after_results_simp <;> rfl

theorem V_v15 (c : Dev nD) : (V m c main_v15 : S64x512x256.Idx → EReal) = Cert.ReferenceIdeal.Read.val_main_v23 (F := Ideal) (m ((c : Thread nD τ).loc main_arg0)) (m ((c : Thread nD τ).loc main_arg3)) := by
  dsimp only [Gen.V, Gen.hostOps0]
  after_results_simp <;> rfl

theorem V_v30 (c : Dev nD) : (V m c main_v30 : S64x512x1.Idx → EReal) = Cert.ReferenceIdeal.Read.val_main_v30 (F := Ideal) (m ((c : Thread nD τ).loc main_arg0)) (m ((c : Thread nD τ).loc main_arg5)) := by
  dsimp only [Gen.V, Gen.hostOps0]
  after_results_simp <;> rfl

theorem V_v31 (c : Dev nD) : (V m c main_v31 : S256x20.Idx → EReal)
    = transpose S256x20 [1, 0] (m ((c : Thread nD τ).loc main_arg6)) Facts₀.transposes_S20x256_S256x20_1_0 := by
  dsimp only [Gen.V, Gen.hostOps0]
  after_results <;> rfl

theorem V_v32 (c : Dev nD) : (V m c main_v32 : S1x20.Idx → EReal)
    = shapeCast S1x20 (m ((c : Thread nD τ).loc main_arg7)) Facts₀.shapeCasts_S20_S1x20 := by
  dsimp only [Gen.V, Gen.hostOps0]
  after_results <;> rfl

/-! ## A block's entry is an entry of the whole array

  Block `t` of an array cut into [16, 128, …] blocks starts at row `16 · (t / 4)`, position `128 · (t % 4)`. -/

theorem blk0 (c : Dev nD) (t : Fin cfg0.N) (p : Fin 16) (s : Fin 128) (j : Fin 16) (d : Fin 256) (b : Fin 64) (q : Fin 512)
    (hb : b.val = 16 * (t.val / 4) + p.val) (hq : q.val = 128 * (t.val % 4) + s.val) :
    (iblk m c 0 t : FVec Ideal S16x128x16x256 .bf16) (ix4 p s j d) = Cert.ReferenceIdeal.Read.val_main_v6 (F := Ideal) (m ((c : Thread nD τ).loc main_arg1)) (m ((c : Thread nD τ).loc main_arg3)) (ix4 b q j d) := by
  unfold iblk
  rw [View.read_apply]
  show V m c main_v7 _ = _
  rw [V_v7]
  refine congrArg _ (funext fun a => Fin.ext ?_)
  obtain ⟨h0, h1, h2, h3⟩ := idx0 t
  match a with
  | ⟨0, _⟩ => show win0_0.index t 0 * 16 + 1 * p.val = b.val; rw [h0, hb]; omega
  | ⟨1, _⟩ => show win0_0.index t 1 * 128 + 1 * s.val = q.val; rw [h1, hq]; omega
  | ⟨2, _⟩ => show win0_0.index t 2 * 16 + 1 * j.val = j.val; rw [h2]; omega
  | ⟨3, _⟩ => show win0_0.index t 3 * 256 + 1 * d.val = d.val; rw [h3]; omega

theorem blk1 (c : Dev nD) (t : Fin cfg0.N) (p : Fin 16) (s : Fin 128) (j : Fin 16) (b : Fin 64) (q : Fin 512)
    (hb : b.val = 16 * (t.val / 4) + p.val) (hq : q.val = 128 * (t.val % 4) + s.val) :
    (iblk m c 1 t : FVec Ideal S16x128x16 .f32) (ix3 p s j) = Cert.ReferenceIdeal.Read.val_main_v13 (F := Ideal) (m ((c : Thread nD τ).loc main_arg2)) (m ((c : Thread nD τ).loc main_arg4)) (ix4 b q j (0 : Fin 1)) := by
  unfold iblk
  rw [View.read_apply]
  show V m c main_v23 _ = _
  rw [V_v23]
  refine (congrArg (shapeCast S64x512x16 _ _) (?_ : _ = ix3 b q j)).trans (cast_abc1_abc_apply _ _ b q j)
  refine funext fun a => Fin.ext ?_
  obtain ⟨h0, h1, h2⟩ := idx1 t
  match a with
  | ⟨0, _⟩ => show win0_1.index t 0 * 16 + 1 * p.val = b.val; rw [h0, hb]; omega
  | ⟨1, _⟩ => show win0_1.index t 1 * 128 + 1 * s.val = q.val; rw [h1, hq]; omega
  | ⟨2, _⟩ => show win0_1.index t 2 * 16 + 1 * j.val = j.val; rw [h2]; omega

theorem blk2 (c : Dev nD) (t : Fin cfg0.N) (p : Fin 16) (s : Fin 128) (d : Fin 256) (b : Fin 64) (q : Fin 512)
    (hb : b.val = 16 * (t.val / 4) + p.val) (hq : q.val = 128 * (t.val % 4) + s.val) :
    (iblk m c 2 t : FVec Ideal S16x128x256 .bf16) (ix3 p s d) = Cert.ReferenceIdeal.Read.val_main_v23 (F := Ideal) (m ((c : Thread nD τ).loc main_arg0)) (m ((c : Thread nD τ).loc main_arg3)) (ix3 b q d) := by
  unfold iblk
  rw [View.read_apply]
  show V m c main_v15 _ = _
  rw [V_v15]
  refine congrArg _ (funext fun a => Fin.ext ?_)
  obtain ⟨h0, h1, h2⟩ := idx2 t
  match a with
  | ⟨0, _⟩ => show win0_2.index t 0 * 16 + 1 * p.val = b.val; rw [h0, hb]; omega
  | ⟨1, _⟩ => show win0_2.index t 1 * 128 + 1 * s.val = q.val; rw [h1, hq]; omega
  | ⟨2, _⟩ => show win0_2.index t 2 * 256 + 1 * d.val = d.val; rw [h2]; omega

theorem blk3 (c : Dev nD) (t : Fin cfg0.N) (p : Fin 16) (s : Fin 128) (u : Fin 1) (b : Fin 64) (q : Fin 512)
    (hb : b.val = 16 * (t.val / 4) + p.val) (hq : q.val = 128 * (t.val % 4) + s.val) :
    (iblk m c 3 t : FVec Ideal S16x128x1 .f32) (ix3 p s u) = Cert.ReferenceIdeal.Read.val_main_v30 (F := Ideal) (m ((c : Thread nD τ).loc main_arg0)) (m ((c : Thread nD τ).loc main_arg5)) (ix3 b q (0 : Fin 1)) := by
  unfold iblk
  rw [View.read_apply]
  show V m c main_v30 _ = _
  rw [V_v30]
  refine congrArg _ (funext fun a => Fin.ext ?_)
  obtain ⟨h0, h1, h2⟩ := idx3 t
  have hu : u.val = 0 := by omega
  match a with
  | ⟨0, _⟩ => show win0_3.index t 0 * 16 + 1 * p.val = b.val; rw [h0, hb]; omega
  | ⟨1, _⟩ => show win0_3.index t 1 * 128 + 1 * s.val = q.val; rw [h1, hq]; omega
  | ⟨2, _⟩ => show win0_3.index t 2 * 1 + 1 * u.val = 0; rw [h2, hu]

theorem blk4 (c : Dev nD) (t : Fin cfg0.N) (k : Fin 256) (g : Fin 20) :
    (iblk m c 4 t : FVec Ideal S256x20 .f32) (ix2 k g) = m ((c : Thread nD τ).loc main_arg6) (ix2 g k) := by
  unfold iblk
  rw [View.read_apply]
  show V m c main_v31 _ = _
  rw [V_v31]
  refine (congrArg (transpose S256x20 [1, 0] _ _) (?_ : _ = ix2 k g)).trans (transpose_ix2_apply _ _ k g)
  refine funext fun a => Fin.ext ?_
  obtain ⟨h0, h1⟩ := idx4 t
  match a with
  | ⟨0, _⟩ => show win0_4.index t 0 * 256 + 1 * k.val = k.val; rw [h0]; omega
  | ⟨1, _⟩ => show win0_4.index t 1 * 20 + 1 * g.val = g.val; rw [h1]; omega

theorem blk5 (c : Dev nD) (t : Fin cfg0.N) (u : Fin 1) (g : Fin 20) :
    (iblk m c 5 t : FVec Ideal S1x20 .f32) (ix2 u g) = m ((c : Thread nD τ).loc main_arg7) (ix1 g) := by
  unfold iblk
  rw [View.read_apply]
  show V m c main_v32 _ = _
  rw [V_v32]
  refine (congrArg (shapeCast S1x20 _ _) (?_ : _ = ix2 u g)).trans (shapeCast_a_1a_apply _ _ u g)
  refine funext fun a => Fin.ext ?_
  obtain ⟨h0, h1⟩ := idx5 t
  match a with
  | ⟨0, _⟩ => show win0_5.index t 0 * 1 + 1 * u.val = u.val; rw [h0]; omega
  | ⟨1, _⟩ => show win0_5.index t 1 * 20 + 1 * g.val = g.val; rw [h1]; omega

end Cert.KernelIdeal.Blocks

end
-- ==== Proof.TileValue.lean ====
/-
  The kernel's accumulator update, read at an index on the extended reals.

  One tile of the kernel holds 16 batch rows and 128 positions. For each position the body multiplies every
  neighbour's embedding by that neighbour's edge weight (the weight repeated along the 256 features), takes the
  maximum over the 16 neighbours from -∞ upward, and mixes it with the position's own embedding by the node weight:
  `(1 - w) · max + w · own`. It then sums the mix over the tile's 128 positions and adds that to the accumulator it
  found. So entry `(p, d)` of the new accumulator is the old entry plus a sum over 128 positions; the widening from
  sixteen-bit floats is the identity on the extended reals.
-/
import proofs.«146202_j41832981463504_2_alg».proof.Proof.Gen.KernelIdeal.Skeleton
import proofs.«146202_j41832981463504_2_alg».proof.Proof.Spec
import proofs.«146202_j41832981463504_2_alg».proof.Proof.LibTrailingUnit
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.TileValue

open Cert.KernelIdeal Cert.KernelIdeal.Gen Cert.KernelIdeal.Facts₀ Cert.KernelIdeal.Facts
open Idealize.ShloMosaic Idealize.ShloMosaic.ValueIdx Idealize.ShloMosaic.TcCoe
open Cert.Spec Cert.Lib.TrailingUnit

/-- The accumulator a tile leaves, at row `p` and feature `d`: the accumulator found there plus the sum over the tile's
    128 positions of the mixed value — the node weight's complement times the largest weighted neighbour embedding,
    plus the node weight times the position's own embedding. -/
theorem pay3_apply (x0 : FVec Ideal S16x128x16x256 .bf16) (x1 : FVec Ideal S16x128x16 .f32) (x2 : FVec Ideal S16x128x256 .bf16)
    (x3 : FVec Ideal S16x128x1 .f32) (acc : FVec Ideal S16x256 .f32) (p : Fin 16) (d : Fin 256) :
    k0_pay3 (F := Ideal) x0 x1 x2 x3 acc (ix2 p d)
      = acc (ix2 p d) + ∑ s : Fin 128, ((one - x3 (ix3 p s 0))
          * ((Finset.univ : Finset (Fin 16)).fold max negInf fun j => x0 (ix4 p s j d) * x1 (ix3 p s j))
          + x3 (ix3 p s 0) * x2 (ix3 p s d)) := by
  unfold k0_pay3
  simp only [shapeCast_self]
  show acc (ix2 p d) + _ = acc (ix2 p d) + _
  refine congrArg (fun z : EReal => acc (ix2 p d) + z) ?_
  refine (Ideal.multiReduction_add_single _ _ _ _ _ (ix2 p d)).trans ?_
  refine Finset.sum_congr rfl fun (s : Fin 128) _ => ?_
  have e : (Facts₀.reduces_S16x128x256_S16x256).lift (ix2 p d) s = ix3 p s d :=
    funext fun a => Fin.ext (by match a with | ⟨0, _⟩ => rfl | ⟨1, _⟩ => rfl | ⟨2, _⟩ => rfl)
  rw [e]
  show _ * _ + _ * _ = _
  refine congrArg₂ (fun y z : EReal => y + z) (congrArg₂ (fun y z : EReal => y * z) ?_ ?_)
    (congrArg₂ (fun y z : EReal => y * z) ?_ ?_)
  · rw [bcast_ab1_abc_apply]
    rfl
  · refine (Ideal.multiReduction_maximumf_single _ _ _ _ _ (ix3 p s d)).trans ?_
    refine Finset.fold_congr fun (j : Fin 16) _ => ?_
    have e2 : (Facts₀.reduces_S16x128x16x256_S16x128x256).lift (ix3 p s d) j = ix4 p s j d :=
      funext fun a => Fin.ext (by match a with | ⟨0, _⟩ => rfl | ⟨1, _⟩ => rfl | ⟨2, _⟩ => rfl | ⟨3, _⟩ => rfl)
    show (mulf _ _) ((Facts₀.reduces_S16x128x16x256_S16x128x256).lift (ix3 p s d) j) = _
    rw [e2]
    show x0 (ix4 p s j d) * _ = _
    refine congrArg (fun z : EReal => x0 (ix4 p s j d) * z) ?_
    rw [bcast_abc1_abcd_apply, cast_abc_abc1_apply]
  · rw [bcast_ab1_abc_apply]
  · rfl

end Cert.KernelIdeal.TileValue

end
-- ==== Proof.Pooled.lean ====
/-
  The kernel's scratch accumulator is the pooled sum.

  Grid point `n` is sequence tile `n % 4` of batch tile `n / 4`. Its body adds to the [16,256] accumulator, at row `p` and
  feature `d`, the mixed values of batch row `16·(n/4) + p` summed over the tile's 128 positions; at the first tile of
  a batch tile the accumulator is first set to zero. So after point `t` the accumulator holds zero plus the sums of the
  tiles of its batch tile run so far — a fold over the points, unrolled by its algebra and never by enumerating the
  grid — and after the last tile (`t % 4 = 3`) that is the sum over all 512 positions: four runs of 128 consecutive
  positions are the 512 positions.
-/
import proofs.«146202_j41832981463504_2_alg».proof.Proof.Gen.KernelIdeal.Value
import proofs.«146202_j41832981463504_2_alg».proof.Proof.CaseValues
import proofs.«146202_j41832981463504_2_alg».proof.Proof.TileValue
import proofs.«146202_j41832981463504_2_alg».proof.Proof.Blocks
import proofs.«146202_j41832981463504_2_alg».proof.Proof.Spec
import Idealize.ShloMosaic.Lib.Pipeline.Value
import Idealize.ShloMosaic.Lib.ValueIdx

set_option maxRecDepth 16384

open scoped BigOperators

noncomputable section

open Idealize.ShloMosaic Idealize.ShloMosaic.TcCoe Idealize.SL.Sem
open Idealize.ShloMosaic.Pipeline (Dat)

namespace Cert.KernelIdeal.Pooled

open Cert.KernelIdeal Cert.KernelIdeal.Gen Idealize.ShloMosaic.ValueIdx Cert.Spec

variable (m : (ℓ : Loc nD τ sig) → Buf (Elt Ideal) ℓ)

/-! ## The specification's arrays, as this program's memory holds them -/

/-- The neighbours' embeddings, their edge weights, the positions' own embeddings and their node weights (the
    reference's four gathers of the argument arrays), the classifier's weights and its bias. -/
abbrev aRa (c : Dev nD) : Fin 64 → Fin 512 → Fin 16 → Fin 256 → EReal := cRa (Cert.ReferenceIdeal.Read.val_main_v6 (F := Ideal) (m ((c : Thread nD τ).loc main_arg1)) (m ((c : Thread nD τ).loc main_arg3)))
abbrev aEa (c : Dev nD) : Fin 64 → Fin 512 → Fin 16 → EReal := cEa (Cert.ReferenceIdeal.Read.val_main_v13 (F := Ideal) (m ((c : Thread nD τ).loc main_arg2)) (m ((c : Thread nD τ).loc main_arg4)))
abbrev aRn (c : Dev nD) : Fin 64 → Fin 512 → Fin 256 → EReal := cRn (Cert.ReferenceIdeal.Read.val_main_v23 (F := Ideal) (m ((c : Thread nD τ).loc main_arg0)) (m ((c : Thread nD τ).loc main_arg3)))
abbrev aNn (c : Dev nD) : Fin 64 → Fin 512 → EReal := cNn (Cert.ReferenceIdeal.Read.val_main_v30 (F := Ideal) (m ((c : Thread nD τ).loc main_arg0)) (m ((c : Thread nD τ).loc main_arg5)))
abbrev aW (c : Dev nD) : Fin 20 → Fin 256 → EReal := cW (m ((c : Thread nD τ).loc main_arg6))
abbrev aB (c : Dev nD) : Fin 20 → EReal := cB (m ((c : Thread nD τ).loc main_arg7))

/-- The mixed value at batch row `b`, position `q`, feature `d`, the coordinates given as numbers (zero outside the array). -/
def mixAt (c : Dev nD) (b q : ℕ) (d : Fin 256) : EReal :=
  if hb : b < 64 then if hq : q < 512 then Spec.mix (aRa m c) (aEa m c) (aRn m c) (aNn m c) ⟨b, hb⟩ ⟨q, hq⟩ d else 0 else 0

/-- What grid point `n` (batch tile `n / 4`, sequence tile `n % 4`) adds to the accumulator at row `p`, feature `d`:
    the mixed values of batch row `16 · (n / 4) + p` summed over the tile's 128 positions. -/
def tileSum (c : Dev nD) (n : ℕ) (i : S16x256.Idx) : EReal :=
  ∑ s : Fin 128, mixAt m c (16 * (n / 4) + (i 0).val) (128 * (n % 4) + s.val) (i 1)

/-- Four blocks that hold rows `16·(n/4) …` and positions `128·(n%4) …` of the four gathered arrays give exactly those values. -/
theorem tile_eq (c : Dev nD) (n : ℕ) (hn : n < 16)
    (x0 : FVec Ideal S16x128x16x256 .bf16) (x1 : FVec Ideal S16x128x16 .f32) (x2 : FVec Ideal S16x128x256 .bf16) (x3 : FVec Ideal S16x128x1 .f32)
    (hx0 : ∀ (p : Fin 16) (s : Fin 128) (j : Fin 16) (d : Fin 256) (b : Fin 64) (q : Fin 512), b.val = 16 * (n / 4) + p.val →
      q.val = 128 * (n % 4) + s.val → x0 (ix4 p s j d) = Cert.ReferenceIdeal.Read.val_main_v6 (F := Ideal) (m ((c : Thread nD τ).loc main_arg1)) (m ((c : Thread nD τ).loc main_arg3)) (ix4 b q j d))
    (hx1 : ∀ (p : Fin 16) (s : Fin 128) (j : Fin 16) (b : Fin 64) (q : Fin 512), b.val = 16 * (n / 4) + p.val →
      q.val = 128 * (n % 4) + s.val → x1 (ix3 p s j) = Cert.ReferenceIdeal.Read.val_main_v13 (F := Ideal) (m ((c : Thread nD τ).loc main_arg2)) (m ((c : Thread nD τ).loc main_arg4)) (ix4 b q j (0 : Fin 1)))
    (hx2 : ∀ (p : Fin 16) (s : Fin 128) (d : Fin 256) (b : Fin 64) (q : Fin 512), b.val = 16 * (n / 4) + p.val →
      q.val = 128 * (n % 4) + s.val → x2 (ix3 p s d) = Cert.ReferenceIdeal.Read.val_main_v23 (F := Ideal) (m ((c : Thread nD τ).loc main_arg0)) (m ((c : Thread nD τ).loc main_arg3)) (ix3 b q d))
    (hx3 : ∀ (p : Fin 16) (s : Fin 128) (u : Fin 1) (b : Fin 64) (q : Fin 512), b.val = 16 * (n / 4) + p.val →
      q.val = 128 * (n % 4) + s.val → x3 (ix3 p s u) = Cert.ReferenceIdeal.Read.val_main_v30 (F := Ideal) (m ((c : Thread nD τ).loc main_arg0)) (m ((c : Thread nD τ).loc main_arg5)) (ix3 b q (0 : Fin 1)))
    (p : Fin 16) (d : Fin 256) :
    (∑ s : Fin 128, ((one - x3 (ix3 p s 0))
        * ((Finset.univ : Finset (Fin 16)).fold max negInf fun j => x0 (ix4 p s j d) * x1 (ix3 p s j))
        + x3 (ix3 p s 0) * x2 (ix3 p s d)))
      = tileSum m c n (ix2 p d) := by
  unfold tileSum
  refine Finset.sum_congr rfl fun s _ => ?_
  have hb : 16 * (n / 4) + p.val < 64 := by omega
  have hq : 128 * (n % 4) + s.val < 512 := by omega
  show _ = mixAt m c (16 * (n / 4) + p.val) (128 * (n % 4) + s.val) d
  unfold mixAt
  rw [dif_pos hb, dif_pos hq]
  rw [hx3 p s 0 ⟨_, hb⟩ ⟨_, hq⟩ rfl rfl, hx2 p s d ⟨_, hb⟩ ⟨_, hq⟩ rfl rfl]
  unfold Spec.mix Spec.nbrMax
  refine congrArg₂ (fun y z : EReal => y + z) (congrArg₂ (fun y z : EReal => y * z) rfl (Finset.fold_congr fun j _ => ?_)) rfl
  rw [hx0 p s j d ⟨_, hb⟩ ⟨_, hq⟩ rfl rfl, hx1 p s j ⟨_, hb⟩ ⟨_, hq⟩ rfl rfl]

/-- The zeros the first tile stores. -/
theorem pay2_apply (i : S16x256.Idx) : k0_pay2 (F := Ideal) i = zero := by
  unfold k0_pay2
  simp only [shapeCast_self]
  rfl

/-! ## What each point leaves in the accumulator -/

/-- At the first tile of a batch tile: zero plus the tile's sum, whatever was there. -/
theorem step_first (c : Dev nD) (n : ℕ) (h : n < cfg0.N) (h0 : n % 4 = 0) (acc : Vec Ideal S16x256 .f32) (i : S16x256.Idx) :
    Value.scAt0_0 m c n h acc i = zero + tileSum m c n i := by
  obtain ⟨p, d, rfl⟩ : ∃ (p : Fin 16) (d : Fin 256), i = ix2 p d := ⟨i 0, i 1, eq_ix2 i⟩
  unfold Value.scAt0_0
  rw [dif_pos h0, dif_neg (by omega)]
  rw [CaseValues.scratch_A]
  refine (TileValue.pay3_apply (iblk m c 0 ⟨n, h⟩) (iblk m c 1 ⟨n, h⟩) (iblk m c 2 ⟨n, h⟩) (iblk m c 3 ⟨n, h⟩) k0_pay2 p d).trans ?_
  rw [pay2_apply]
  exact congrArg (fun z : EReal => zero + z) (tile_eq m c n (lt_of_lt_of_eq h N_0) (iblk m c 0 ⟨n, h⟩) (iblk m c 1 ⟨n, h⟩) (iblk m c 2 ⟨n, h⟩) (iblk m c 3 ⟨n, h⟩)
      (fun p s j d b q hb hq => Blocks.blk0 m c ⟨n, h⟩ p s j d b q hb hq)
      (fun p s j b q hb hq => Blocks.blk1 m c ⟨n, h⟩ p s j b q hb hq)
      (fun p s d b q hb hq => Blocks.blk2 m c ⟨n, h⟩ p s d b q hb hq)
      (fun p s u b q hb hq => Blocks.blk3 m c ⟨n, h⟩ p s u b q hb hq) p d)

/-- At every other tile: what was there plus the tile's sum. -/
theorem step_next (c : Dev nD) (n : ℕ) (h : n < cfg0.N) (h0 : ¬n % 4 = 0) (acc : Vec Ideal S16x256 .f32) (i : S16x256.Idx) :
    Value.scAt0_0 m c n h acc i = acc i + tileSum m c n i := by
  obtain ⟨p, d, rfl⟩ : ∃ (p : Fin 16) (d : Fin 256), i = ix2 p d := ⟨i 0, i 1, eq_ix2 i⟩
  unfold Value.scAt0_0
  rw [dif_neg h0]
  by_cases h1 : n % 4 = 3
  · rw [dif_pos h1, CaseValues.scratch_C]
    refine (TileValue.pay3_apply (iblk m c 0 ⟨n, h⟩) (iblk m c 1 ⟨n, h⟩) (iblk m c 2 ⟨n, h⟩) (iblk m c 3 ⟨n, h⟩) acc p d).trans ?_
    exact congrArg (fun z : EReal => acc (ix2 p d) + z) (tile_eq m c n (lt_of_lt_of_eq h N_0) (iblk m c 0 ⟨n, h⟩) (iblk m c 1 ⟨n, h⟩) (iblk m c 2 ⟨n, h⟩) (iblk m c 3 ⟨n, h⟩)
      (fun p s j d b q hb hq => Blocks.blk0 m c ⟨n, h⟩ p s j d b q hb hq)
      (fun p s j b q hb hq => Blocks.blk1 m c ⟨n, h⟩ p s j b q hb hq)
      (fun p s d b q hb hq => Blocks.blk2 m c ⟨n, h⟩ p s d b q hb hq)
      (fun p s u b q hb hq => Blocks.blk3 m c ⟨n, h⟩ p s u b q hb hq) p d)
  · rw [dif_neg h1, CaseValues.scratch_B]
    refine (TileValue.pay3_apply (iblk m c 0 ⟨n, h⟩) (iblk m c 1 ⟨n, h⟩) (iblk m c 2 ⟨n, h⟩) (iblk m c 3 ⟨n, h⟩) acc p d).trans ?_
    exact congrArg (fun z : EReal => acc (ix2 p d) + z) (tile_eq m c n (lt_of_lt_of_eq h N_0) (iblk m c 0 ⟨n, h⟩) (iblk m c 1 ⟨n, h⟩) (iblk m c 2 ⟨n, h⟩) (iblk m c 3 ⟨n, h⟩)
      (fun p s j d b q hb hq => Blocks.blk0 m c ⟨n, h⟩ p s j d b q hb hq)
      (fun p s j b q hb hq => Blocks.blk1 m c ⟨n, h⟩ p s j b q hb hq)
      (fun p s d b q hb hq => Blocks.blk2 m c ⟨n, h⟩ p s d b q hb hq)
      (fun p s u b q hb hq => Blocks.blk3 m c ⟨n, h⟩ p s u b q hb hq) p d)

/-- So after point `t` the accumulator holds zero plus the sums of the tiles of its batch tile run so far. -/
theorem scratch_after (c : Dev nD) (t : Fin cfg0.N) (i : S16x256.Idx) :
    (outsAt0 m c t.val t.isLt).2 i = zero + ∑ k ∈ Finset.range (t.val % 4 + 1), tileSum m c (4 * (t.val / 4) + k) i := by
  rw [Value.soutsAt0_0_eq m c t]
  exact Pipeline.accAt_add_apply _ _ (fun _ => zero) (tileSum m c) (4 * (t.val / 4)) 3
    (fun h i => step_first m c _ h (by omega) _ i)
    (fun n h acc i hlt hle => step_next m c n h (by omega) acc i)
    (t.val % 4) (by omega) _ i

/-- After the last tile of a batch tile that is the pooled value: the sum over all 512 positions. -/
theorem pooled (c : Dev nD) (t : Fin cfg0.N) (h3 : t.val % 4 = 3) (p : Fin 16) (k : Fin 256) (b : Fin 64)
    (hb : b.val = 16 * (t.val / 4) + p.val) :
    (outsAt0 m c t.val t.isLt).2 (ix2 p k) = Spec.pool (aRa m c) (aEa m c) (aRn m c) (aNn m c) b k := by
  rw [scratch_after, h3, zero_eq, zero_add]
  have e1 : ∀ k' ∈ Finset.range (3 + 1), tileSum m c (4 * (t.val / 4) + k') (ix2 p k)
      = ∑ s ∈ Finset.range 128, mixAt m c b.val (128 * k' + s) k := by
    intro k' hk'
    have hk4 : k' < 4 := Finset.mem_range.mp hk'
    unfold tileSum
    rw [Fin.sum_univ_eq_sum_range (fun s => mixAt m c (16 * ((4 * (t.val / 4) + k') / 4) + p.val) (128 * ((4 * (t.val / 4) + k') % 4) + s) k) 128]
    refine Finset.sum_congr rfl fun s _ => ?_
    have e2 : 16 * ((4 * (t.val / 4) + k') / 4) + p.val = b.val := by omega
    have e3 : (4 * (t.val / 4) + k') % 4 = k' := by omega
    rw [e2, e3]
  rw [Finset.sum_congr rfl e1, Spec.sum_tiles (fun n => mixAt m c b.val n k) 128 4]
  unfold Spec.pool
  rw [← Fin.sum_univ_eq_sum_range (fun n => mixAt m c b.val n k) (4 * 128)]
  refine Finset.sum_congr rfl fun q _ => ?_
  unfold mixAt
  rw [dif_pos b.isLt, dif_pos q.isLt]

end Cert.KernelIdeal.Pooled

end
-- ==== Proof.Result.lean ====
/-
  The kernel's result array is the specified function of its arguments.

  Only the last-tile point of a batch tile writes its [16,20] output block back, and that block is computed from the
  accumulator the point has just completed: the pooled values of the batch tile's 16 rows. With the staged weight block
  (the transposed weights) and bias block, its relu'd logits are the specification's for batch row `16·(t/4) + p`, so
  the block is the specification's log-softmax, in the kernel's spelling, restricted to those rows. The four
  last-tile points' blocks cover the [64,20] array: row `r` lies in the block of point `4·(r/16) + 3`. So the array
  after the run is the specified function, and the frame run says the arguments are as they were.
-/
import proofs.«146202_j41832981463504_2_alg».proof.Proof.Gen.KernelIdeal.Value
import proofs.«146202_j41832981463504_2_alg».proof.Proof.CaseValues
import proofs.«146202_j41832981463504_2_alg».proof.Proof.HeadValue
import proofs.«146202_j41832981463504_2_alg».proof.Proof.Blocks
import proofs.«146202_j41832981463504_2_alg».proof.Proof.Pooled
import proofs.«146202_j41832981463504_2_alg».proof.Proof.Spec
import Idealize.ShloMosaic.Lib.Pipeline.Value
import Idealize.ShloMosaic.Lib.ValueIdx

set_option maxRecDepth 16384

open scoped BigOperators

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.Spec Cert.KernelIdeal.Pooled

variable (m : (ℓ : Loc nD τ sig) → Buf (Elt Ideal) ℓ) (ρ : Dev nD → PrngReg)

/-- The result array: the specified function of the gathered arrays, the weights and the bias, in the kernel's
    spelling of the log-softmax. -/
abbrev result (c : Dev nD) : S64x20.Idx → EReal :=
  outKOf (Cert.ReferenceIdeal.Read.val_main_v6 (F := Ideal) (m ((c : Thread nD τ).loc main_arg1)) (m ((c : Thread nD τ).loc main_arg3))) (Cert.ReferenceIdeal.Read.val_main_v13 (F := Ideal) (m ((c : Thread nD τ).loc main_arg2)) (m ((c : Thread nD τ).loc main_arg4))) (Cert.ReferenceIdeal.Read.val_main_v23 (F := Ideal) (m ((c : Thread nD τ).loc main_arg0)) (m ((c : Thread nD τ).loc main_arg3))) (Cert.ReferenceIdeal.Read.val_main_v30 (F := Ideal) (m ((c : Thread nD τ).loc main_arg0)) (m ((c : Thread nD τ).loc main_arg5)))
    (m ((c : Thread nD τ).loc main_arg6)) (m ((c : Thread nD τ).loc main_arg7))

/-- At a last tile the relu'd logits of block row `p` are those of batch row `16 · (t / 4) + p`: the accumulator is the
    pooled value, the staged weight block is the transposed weights, the staged bias block the bias. -/
theorem act_eq (c : Dev nD) (t : Fin cfg0.N) (h3 : t.val % 4 = 3) (p : Fin 16) (g : Fin 20) (b : Fin 64)
    (hb : b.val = 16 * (t.val / 4) + p.val) :
    HeadValue.headAct (outsAt0 m c t.val t.isLt).2 (iblk m c 4 t) (iblk m c 5 t) p g
      = act (aRa m c) (aEa m c) (aRn m c) (aNn m c) (aW m c) (aB m c) b g := by
  unfold HeadValue.headAct act logit
  refine congrArg₂ (fun y z : EReal => max y z) (congrArg₂ (fun y z : EReal => y + z) (Finset.sum_congr rfl fun k _ => ?_) ?_) rfl
  · rw [pooled m c t h3 p k b hb, Blocks.blk4 m c t k g]
  · exact Blocks.blk5 m c t 0 g

/-- An index of the result array is in point `t`'s block iff each coordinate is in the block's range on its axis. -/
theorem mem_blk (t : Fin cfg0.N) (i : S64x20.Idx) :
    i ∈ ((cfg0.win 6).blk t).view.set ↔ ∀ a : Fin 2, win0_6.index t a * S16x20.size a ≤ (i a).val ∧ (i a).val < win0_6.index t a * S16x20.size a + S16x20.size a := by
  show i ∈ ((View.whole main_v33).slice (win0_6.rect t)).set ↔ _
  rw [View.set_slice_whole, Rect.mem_set_unit]
  exact Iff.rfl

/-- What a last-tile point writes back is its block of the result array. -/
theorem flushed_eq (c : Dev nD) (t : Fin cfg0.N) (hf : (cfg0.win 6).flush t = true) :
    (dats m 0 c).flushed 6 t = ((cfg0.win 6).blk t).view.read (Elt Ideal) (result m c) := by
  have h3 : t.val % 4 = 3 := (flush0_6 t).mp hf
  have h0 : ¬t.val % 4 = 0 := by omega
  have hN : cfg0.N = 16 := N_0
  have ht := t.isLt
  rw [Value.flushed6_C m c t h0 h3, CaseValues.out_C]
  have hs : (outsAt0 m c t.val t.isLt).2 = k0_pay3 (iblk m c 0 t) (iblk m c 1 t) (iblk m c 2 t) (iblk m c 3 t)
      (outsAt0 m c (t.val - 1) (Nat.lt_of_le_of_lt (Nat.sub_le _ _) t.isLt)).2 := by
    rw [outsAt0_C m c t h0 h3]
    dsimp only
    exact CaseValues.scratch_C ..
  rw [← hs]
  funext j
  obtain ⟨p, g, rfl⟩ : ∃ (p : Fin 16) (g : Fin 20), j = ix2 p g := ⟨j 0, j 1, eq_ix2 j⟩
  have hbl : 16 * (t.val / 4) + p.val < 64 := by omega
  have hemb : ((cfg0.win 6).blk t).view.emb (ix2 p g) = ix2 (⟨16 * (t.val / 4) + p.val, hbl⟩ : Fin 64) g := by
    obtain ⟨e0, e1⟩ := Blocks.idx6 t
    refine funext fun a => Fin.ext ?_
    match a with
    | ⟨0, _⟩ => show win0_6.index t 0 * 16 + 1 * p.val = 16 * (t.val / 4) + p.val; rw [e0]; omega
    | ⟨1, _⟩ => show win0_6.index t 1 * 20 + 1 * g.val = g.val; rw [e1]; omega
  show k0_pay1 (F := Ideal) (outsAt0 m c t.val t.isLt).2 (iblk m c 4 t) (iblk m c 5 t) (ix2 p g)
    = result m c (((cfg0.win 6).blk t).view.emb (ix2 p g))
  rw [hemb]
  refine (HeadValue.pay1_apply (outsAt0 m c t.val t.isLt).2 (iblk m c 4 t) (iblk m c 5 t) p g).trans ?_
  simp only [act_eq m c t h3 p _ ⟨16 * (t.val / 4) + p.val, hbl⟩ rfl]
  rfl

/-- So the result array ends holding the specified function: every index lies in the block of the last-tile point of
    its batch tile. -/
theorem final (c : Dev nD) : (dats m 0 c).arrAt 6 cfg0.N = result m c :=
  (dats m 0 c).arrAt_eq_of_cover 6 (result m c) (flushed_eq m c) fun i => by
    have hi0 : (i 0).val < 64 := (i 0).isLt
    have hi1 : (i 1).val < 20 := (i 1).isLt
    have hN : cfg0.N = 16 := N_0
    have hlt : 4 * ((i 0).val / 16) + 3 < cfg0.N := by omega
    refine ⟨⟨4 * ((i 0).val / 16) + 3, hlt⟩, (flush0_6 _).mpr (by show (4 * ((i 0).val / 16) + 3) % 4 = 3; omega), ?_⟩
    rw [mem_blk]
    obtain ⟨e0, e1⟩ := Blocks.idx6 ⟨4 * ((i 0).val / 16) + 3, hlt⟩
    have e0' : win0_6.index ⟨4 * ((i 0).val / 16) + 3, hlt⟩ 0 = (i 0).val / 16 := by rw [e0]; show (4 * ((i 0).val / 16) + 3) / 4 = _; omega
    intro a
    match a with
    | ⟨0, _⟩ => show win0_6.index ⟨4 * ((i 0).val / 16) + 3, hlt⟩ 0 * 16 ≤ (i 0).val ∧ (i 0).val < win0_6.index ⟨4 * ((i 0).val / 16) + 3, hlt⟩ 0 * 16 + 16; rw [e0']; omega
    | ⟨1, _⟩ => show win0_6.index ⟨4 * ((i 0).val / 16) + 3, hlt⟩ 1 * 20 ≤ (i 1).val ∧ (i 1).val < win0_6.index ⟨4 * ((i 0).val / 16) + 3, hlt⟩ 1 * 20 + 20; rw [e1]; omega

/-- The run, read: the result array at the specified function, the arguments unchanged. -/
theorem run : θ_run defs (onTc (τ := τ) (main (F := Ideal))) ⟨m, fun _ => 0, ρ⟩ fun r => ∀ c : Dev nD,
      r.2.mem ((c : Thread nD τ).loc main_v33) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Result

end
-- ==== Proof.ReferenceValue.lean ====
/-
  The reference program computes the specified function.

  The reference reads four arrays out of its tables by index (the neighbours' embeddings, their edge weights, the
  positions' own embeddings and their node weights); from there on every operation is read at an index, one stage of
  the specification at a time:

    the product of a neighbour's embedding and its edge weight, the weight broadcast along the feature axis;
    the maximum of that product over the 16 neighbours, taken from -∞ upward (a fold of max over the neighbour axis);
    the convex combination (1 - Nn) · (that maximum) + Nn · (the position's own embedding);
    the sum of the combination over the 512 positions (from the zero pattern, which adds nothing);
    the product with the classifier's weights summed over the 256 features, plus the bias broadcast over the rows;
    the maximum with the zero pattern;
    the row's maximum over the 20 classes from -∞ upward, under one more maximum with -∞, which changes nothing;
    the difference from the row's maximum, its exponential summed over the classes, the logarithm of that sum;
    and the result: the difference minus the logarithm.

  Each stage is stated at explicit coordinates; the index maps of the layout operations (broadcasts along a unit or a
  new axis, the transposition of the weights) are identified with the coordinate constructors once per stage.
-/
import proofs.«146202_j41832981463504_2_alg».proof.Proof.Gen.ReferenceIdeal.Read
import proofs.«146202_j41832981463504_2_alg».proof.Proof.Spec
import Idealize.ShloMosaic.PureOps.Reduce
import Idealize.ShloMosaic.PureOps.Ideal.Laws
import Idealize.ShloMosaic.Lib.ValueIdx

open scoped BigOperators

noncomputable section

namespace Cert.ReferenceIdeal.RefValue

open Cert.ReferenceIdeal Cert.ReferenceIdeal.Gen Cert.ReferenceIdeal.Read Idealize.ShloMosaic Idealize.ShloMosaic.ValueIdx

/-- A maximum with -∞ on the left is the other argument. -/
theorem negInf_max (x : EReal) : max Cert.Spec.negInf x = x := by
  rw [Cert.Spec.negInf_eq]; exact max_eq_right bot_le

section Stages

variable (x0 : (⟨S64x512, .i32⟩ : BufTy).Contents (Elt Ideal))
  (x1 x2 : (⟨S64x512x16, .i32⟩ : BufTy).Contents (Elt Ideal))
  (x3 : (⟨S5000x256, .f32⟩ : BufTy).Contents (Elt Ideal))
  (x4 : (⟨S24990002x1, .f32⟩ : BufTy).Contents (Elt Ideal))
  (x5 : (⟨S5000x1, .f32⟩ : BufTy).Contents (Elt Ideal))
  (x6 : (⟨S20x256, .f32⟩ : BufTy).Contents (Elt Ideal))
  (x7 : (⟨S20, .f32⟩ : BufTy).Contents (Elt Ideal))

/-- The weighted neighbour embedding at (b, s, j, d): the embedding there times the edge weight at (b, s, j, 0) — the
    weight's last axis has one entry, read whatever the feature d. -/
theorem prod_at (b : Fin 64) (s : Fin 512) (j : Fin 16) (d : Fin 256) :
    val_main_v15 (F := Ideal) x1 x2 x3 x4 (ix4 b s j d)
      = val_main_v6 (F := Ideal) x1 x3 (ix4 b s j d) * val_main_v13 (F := Ideal) x2 x4 (ix4 b s j 0) := by
  rw [val_main_v15_apply, val_main_v14_apply]
  have e : idx_main_v14 (ix4 b s j d) = ix4 b s j (0 : Fin 1) := funext fun a => Fin.ext (by match a with | ⟨0, _⟩ => rfl | ⟨1, _⟩ => rfl | ⟨2, _⟩ => rfl | ⟨3, _⟩ => rfl)
  rw [e]; rfl

/-- The maximum over the 16 neighbours at (b, s, d): the fold of max from -∞ over the neighbour axis; the index
    (b, s, d) with the neighbour j inserted on axis 2 is (b, s, j, d). -/
theorem nbrMax_at (b : Fin 64) (s : Fin 512) (d : Fin 256) :
    val_main_v16 (F := Ideal) x1 x2 x3 x4 (ix3 b s d) = Cert.Spec.nbrMax (Cert.Spec.cRa (val_main_v6 (F := Ideal) x1 x3)) (Cert.Spec.cEa (val_main_v13 (F := Ideal) x2 x4)) b s d := by
  have h : S64x512x16x256.Reduces [2] S64x512x256 := by decide
  unfold val_main_v16
  rw [Host.reduce_eq_fold_single FloatOps.maximumf _ _ reducesTo_S64x512x16x256_S64x512x256_d2 h h_S_]
  have hf : (fun j : Fin 16 => val_main_v15 (F := Ideal) x1 x2 x3 x4 (h.lift (ix3 b s d) j))
      = fun j : Fin 16 => val_main_v6 (F := Ideal) x1 x3 (ix4 b s j d) * val_main_v13 (F := Ideal) x2 x4 (ix4 b s j 0) :=
    funext fun (j : Fin 16) => by
      have e : h.lift (ix3 b s d) j = ix4 b s j d := funext fun a => Fin.ext (by match a with | ⟨0, _⟩ => rfl | ⟨1, _⟩ => rfl | ⟨2, _⟩ => rfl | ⟨3, _⟩ => rfl)
      show val_main_v15 (F := Ideal) x1 x2 x3 x4 (h.lift (ix3 b s d) j) = _
      rw [e, prod_at]
  exact congrArg (fun f => Finset.fold max Cert.Spec.negInf f (Finset.univ : Finset (Fin 16))) hf

/-- The combination at (b, s, d): (1 - Nn) · (the neighbours' maximum) + Nn · (the own embedding), the node weight
    read at (b, s, 0) in both places. -/
theorem mix_at (b : Fin 64) (s : Fin 512) (d : Fin 256) :
    val_main_v37 (F := Ideal) x0 x1 x2 x3 x4 x5 (ix3 b s d) = Cert.Spec.mix (Cert.Spec.cRa (val_main_v6 (F := Ideal) x1 x3)) (Cert.Spec.cEa (val_main_v13 (F := Ideal) x2 x4)) (Cert.Spec.cRn (val_main_v23 (F := Ideal) x0 x3)) (Cert.Spec.cNn (val_main_v30 (F := Ideal) x0 x5)) b s d := by
  rw [val_main_v37_apply, val_main_v34_apply, val_main_v36_apply, val_main_v33_apply, val_main_v35_apply,
    val_main_v32_apply, val_main_v31_apply, val_main_cst_7_apply, nbrMax_at]
  have e33 : idx_main_v33 (ix3 b s d) = ix3 b s (0 : Fin 1) := funext fun a => Fin.ext (by match a with | ⟨0, _⟩ => rfl | ⟨1, _⟩ => rfl | ⟨2, _⟩ => rfl)
  have e35 : idx_main_v35 (ix3 b s d) = ix3 b s (0 : Fin 1) := funext fun a => Fin.ext (by match a with | ⟨0, _⟩ => rfl | ⟨1, _⟩ => rfl | ⟨2, _⟩ => rfl)
  rw [e33, e35]; rfl

/-- The sum over the 512 positions at (b, d), from the zero pattern. -/
theorem pool_at (b : Fin 64) (d : Fin 256) :
    val_main_v38 (F := Ideal) x0 x1 x2 x3 x4 x5 (ix2 b d) = Cert.Spec.pool (Cert.Spec.cRa (val_main_v6 (F := Ideal) x1 x3)) (Cert.Spec.cEa (val_main_v13 (F := Ideal) x2 x4)) (Cert.Spec.cRn (val_main_v23 (F := Ideal) x0 x3)) (Cert.Spec.cNn (val_main_v30 (F := Ideal) x0 x5)) b d := by
  rw [val_main_v38_apply, val_main_cst_8_apply]
  show Ideal.ofBits .f32 0x00000000#32 + _ = _
  rw [Ideal.ofBits_zero_f32, zero_add]
  refine Finset.sum_congr rfl fun k _ => ?_
  have e : idx_main_v38 (ix2 b d) k = ix3 b k d := funext fun a => Fin.ext (by match a with | ⟨0, _⟩ => rfl | ⟨1, _⟩ => rfl | ⟨2, _⟩ => rfl)
  rw [e, mix_at]

/-- The classifier at (b, g): the pooled features times the weights' row g, summed over the 256 features, plus the
    bias at g; the transposed weights at (k, g) are the weights at (g, k). -/
theorem logit_at (b : Fin 64) (g : Fin 20) :
    val_main_v43 (F := Ideal) x0 x1 x2 x3 x4 x5 x6 x7 (ix2 b g) = Cert.Spec.logit (Cert.Spec.cRa (val_main_v6 (F := Ideal) x1 x3)) (Cert.Spec.cEa (val_main_v13 (F := Ideal) x2 x4)) (Cert.Spec.cRn (val_main_v23 (F := Ideal) x0 x3)) (Cert.Spec.cNn (val_main_v30 (F := Ideal) x0 x5)) (Cert.Spec.cW x6) (Cert.Spec.cB x7) b g := by
  rw [val_main_v43_apply, val_main_v40_apply, val_main_v42_apply, val_main_v41_apply]
  have hs : ∀ k : Fin 256, val_main_v38 (F := Ideal) x0 x1 x2 x3 x4 x5 (lidx_main_v40 (ix2 b g) k) * val_main_v39 (F := Ideal) x6 (ridx_main_v40 (ix2 b g) k)
      = Cert.Spec.pool (Cert.Spec.cRa (val_main_v6 (F := Ideal) x1 x3)) (Cert.Spec.cEa (val_main_v13 (F := Ideal) x2 x4)) (Cert.Spec.cRn (val_main_v23 (F := Ideal) x0 x3)) (Cert.Spec.cNn (val_main_v30 (F := Ideal) x0 x5)) b k * x6 (ix2 g k) := fun k => by
    rw [val_main_v39_apply]
    have el : lidx_main_v40 (ix2 b g) k = ix2 b k := funext fun a => Fin.ext (by match a with | ⟨0, _⟩ => rfl | ⟨1, _⟩ => rfl)
    have er : idx_main_v39 (ridx_main_v40 (ix2 b g) k) = ix2 g k := funext fun a => Fin.ext (by match a with | ⟨0, _⟩ => rfl | ⟨1, _⟩ => rfl)
    rw [el, er, pool_at]
  have hb : idx_main_v41 (idx_main_v42 (ix2 b g)) = ix1 g := funext fun a => Fin.ext (by match a with | ⟨0, _⟩ => rfl)
  rw [Finset.sum_congr rfl (fun k _ => hs k), hb]; rfl

/-- The rectified classifier at (b, g): its maximum with the zero pattern. -/
theorem act_at (b : Fin 64) (g : Fin 20) :
    val_main_v44 (F := Ideal) x0 x1 x2 x3 x4 x5 x6 x7 (ix2 b g) = Cert.Spec.act (Cert.Spec.cRa (val_main_v6 (F := Ideal) x1 x3)) (Cert.Spec.cEa (val_main_v13 (F := Ideal) x2 x4)) (Cert.Spec.cRn (val_main_v23 (F := Ideal) x0 x3)) (Cert.Spec.cNn (val_main_v30 (F := Ideal) x0 x5)) (Cert.Spec.cW x6) (Cert.Spec.cB x7) b g := by
  rw [val_main_v44_apply, val_main_call0_v0_apply, val_main_call0_cst_apply, logit_at]; rfl

/-- The row's maximum at b: the fold of max from -∞ over the 20 classes, under one more maximum with -∞. -/
theorem rowMax_at (b : Fin 64) :
    val_main_call1_v2 (F := Ideal) x0 x1 x2 x3 x4 x5 x6 x7 (ix1 b) = Cert.Spec.rowMax (Cert.Spec.cRa (val_main_v6 (F := Ideal) x1 x3)) (Cert.Spec.cEa (val_main_v13 (F := Ideal) x2 x4)) (Cert.Spec.cRn (val_main_v23 (F := Ideal) x0 x3)) (Cert.Spec.cNn (val_main_v30 (F := Ideal) x0 x5)) (Cert.Spec.cW x6) (Cert.Spec.cB x7) b := by
  have h : S64x20.Reduces [1] S64 := by decide
  rw [val_main_call1_v2_apply, val_main_call1_v1_apply, val_main_call1_cst_0_apply]
  unfold val_main_call1_v0
  rw [Host.reduce_eq_fold_single FloatOps.maximumf _ _ reducesTo_S64x20_S64_d1 h h_S_]
  have hf : (fun g : Fin 20 => val_main_v44 (F := Ideal) x0 x1 x2 x3 x4 x5 x6 x7 (h.lift (ix1 b) g))
      = fun g : Fin 20 => Cert.Spec.act (Cert.Spec.cRa (val_main_v6 (F := Ideal) x1 x3)) (Cert.Spec.cEa (val_main_v13 (F := Ideal) x2 x4)) (Cert.Spec.cRn (val_main_v23 (F := Ideal) x0 x3)) (Cert.Spec.cNn (val_main_v30 (F := Ideal) x0 x5)) (Cert.Spec.cW x6) (Cert.Spec.cB x7) b g :=
    funext fun (g : Fin 20) => by
      have e : h.lift (ix1 b) g = ix2 b g := funext fun a => Fin.ext (by match a with | ⟨0, _⟩ => rfl | ⟨1, _⟩ => rfl)
      show val_main_v44 (F := Ideal) x0 x1 x2 x3 x4 x5 x6 x7 (h.lift (ix1 b) g) = _
      rw [e, act_at]
  refine Eq.trans (negInf_max _) ?_
  exact congrArg (fun f => Finset.fold max Cert.Spec.negInf f (Finset.univ : Finset (Fin 20))) hf

/-- The rectified classifier less its row's maximum, at (b, g). -/
theorem shifted_at (b : Fin 64) (g : Fin 20) :
    val_main_call1_v5 (F := Ideal) x0 x1 x2 x3 x4 x5 x6 x7 (ix2 b g)
      = Cert.Spec.act (Cert.Spec.cRa (val_main_v6 (F := Ideal) x1 x3)) (Cert.Spec.cEa (val_main_v13 (F := Ideal) x2 x4)) (Cert.Spec.cRn (val_main_v23 (F := Ideal) x0 x3)) (Cert.Spec.cNn (val_main_v30 (F := Ideal) x0 x5)) (Cert.Spec.cW x6) (Cert.Spec.cB x7) b g - Cert.Spec.rowMax (Cert.Spec.cRa (val_main_v6 (F := Ideal) x1 x3)) (Cert.Spec.cEa (val_main_v13 (F := Ideal) x2 x4)) (Cert.Spec.cRn (val_main_v23 (F := Ideal) x0 x3)) (Cert.Spec.cNn (val_main_v30 (F := Ideal) x0 x5)) (Cert.Spec.cW x6) (Cert.Spec.cB x7) b := by
  rw [val_main_call1_v5_apply, val_main_call1_v4_apply, val_main_call1_v3_apply, act_at]
  have e : idx_main_call1_v3 (idx_main_call1_v4 (ix2 b g)) = ix1 b := funext fun a => Fin.ext (by match a with | ⟨0, _⟩ => rfl)
  rw [e, rowMax_at]; rfl

/-- The logarithm of the row's sum of exponentials, broadcast to (b, g). -/
theorem lse_at (b : Fin 64) (g : Fin 20) :
    val_main_call1_v10 (F := Ideal) x0 x1 x2 x3 x4 x5 x6 x7 (ix2 b g) = Cert.Spec.lse (Cert.Spec.cRa (val_main_v6 (F := Ideal) x1 x3)) (Cert.Spec.cEa (val_main_v13 (F := Ideal) x2 x4)) (Cert.Spec.cRn (val_main_v23 (F := Ideal) x0 x3)) (Cert.Spec.cNn (val_main_v30 (F := Ideal) x0 x5)) (Cert.Spec.cW x6) (Cert.Spec.cB x7) b := by
  rw [val_main_call1_v10_apply, val_main_call1_v9_apply, val_main_call1_v8_apply, val_main_call1_v7_apply,
    val_main_call1_cst_1_apply]
  show Ideal.log (Ideal.ofBits .f32 0x00000000#32 + _) = _
  rw [Ideal.ofBits_zero_f32, zero_add]
  refine congrArg Ideal.log (Finset.sum_congr rfl fun k _ => ?_)
  have e : idx_main_call1_v7 (idx_main_call1_v8 (idx_main_call1_v10 (ix2 b g))) k = ix2 b k := funext fun a => Fin.ext (by match a with | ⟨0, _⟩ => rfl | ⟨1, _⟩ => rfl)
  rw [e, val_main_call1_v6_apply, shifted_at]; rfl

end Stages

/-- The reference's result is the specified function of the four gathered arrays, the classifier's weights and its
    bias. -/
theorem result_eq (x0 : (⟨S64x512, .i32⟩ : BufTy).Contents (Elt Ideal))
    (x1 x2 : (⟨S64x512x16, .i32⟩ : BufTy).Contents (Elt Ideal))
    (x3 : (⟨S5000x256, .f32⟩ : BufTy).Contents (Elt Ideal))
    (x4 : (⟨S24990002x1, .f32⟩ : BufTy).Contents (Elt Ideal))
    (x5 : (⟨S5000x1, .f32⟩ : BufTy).Contents (Elt Ideal))
    (x6 : (⟨S20x256, .f32⟩ : BufTy).Contents (Elt Ideal))
    (x7 : (⟨S20, .f32⟩ : BufTy).Contents (Elt Ideal)) :
    Read.val_main_v45 (F := Ideal) x0 x1 x2 x3 x4 x5 x6 x7
      = Cert.Spec.outOf (Read.val_main_v6 (F := Ideal) x1 x3) (Read.val_main_v13 (F := Ideal) x2 x4)
          (Read.val_main_v23 (F := Ideal) x0 x3) (Read.val_main_v30 (F := Ideal) x0 x5) x6 x7 := by
  funext i
  obtain ⟨b, g, rfl⟩ : ∃ (b : Fin 64) (g : Fin 20), i = ix2 b g := ⟨i 0, i 1, eq_ix2 i⟩
  rw [val_main_v45_apply, shifted_at, lse_at]
  rfl

end Cert.ReferenceIdeal.RefValue

end
-- ==== Proof.LibAllEntries.lean ====
/-
  A predicate of the form "all entries of an array satisfy P", computed as the conjunction over the whole array of an
  entrywise comparison, read back entry by entry: when the conjunction is the bit 1, the comparison holds at every index.
  Two comparisons are decoded on the extended reals: |x| < +inf at every entry makes every entry a real number, and
  x ≥ 0 at every entry makes every entry nonnegative. The statements are general in the array's shape; a conjunction of
  two such predicates splits into its two parts.
-/
import Idealize.ShloMosaic.PureOps.Ideal
import Idealize.ShloMosaic.PureOps.Ideal.Laws
import Idealize.ShloMosaic.Lib.ReduceAll
import Idealize.ShloMosaic.Lib.ValueIdx

noncomputable section

namespace Cert.Lib.AllEntries

open Idealize.ShloMosaic Idealize.ShloMosaic.ValueIdx

/-- The scalar shape has exactly one index: two indices are functions on an empty set of axes. -/
instance scalarIdxSubsingleton : Subsingleton (⟨0, ![]⟩ : Shape).Idx :=
  ⟨fun _ _ => funext fun d => d.elim0⟩

/-- A bit made from a Boolean is 1 exactly when the Boolean is true. -/
theorem bit_eq_one {b : Bool} : BitVec.ofBool b = 1#1 ↔ b = true := by cases b <;> decide

/-- An extended real whose absolute value max v (-v) is below +inf is a real number: both infinities have
    absolute value +inf. -/
theorem real_of_abs_lt_top (v : EReal) (h : max v (-v) < ⊤) : ∃ r : ℝ, v = r := by
  induction v using EReal.rec with
  | bot => simp at h
  | coe r => exact ⟨r, rfl⟩
  | top => simp at h

/-- The f32 pattern 0x7F800000 (sign clear, exponent all ones, fraction zero) denotes +inf. -/
theorem inf_f32 : Ideal.ofBits .f32 0x7F800000#32 = (⊤ : EReal) := by
  simp [Ideal.ofBits, Ideal.ieee]

/-- A conjunction of two bit arrays that is 1 at an index has both conjuncts 1 there. -/
theorem and_split {s : Shape} (x y : IVec s 1) (i : s.Idx) (h : andi x y i = 1#1) : x i = 1#1 ∧ y i = 1#1 :=
  IntOp.andi_eq_one.1 h

/-- The splat of the scalar pattern 0x7F800000 over any shape is +inf at every index. -/
theorem splat_inf {s : Shape} (hb : (⟨0, ![]⟩ : Shape).BroadcastsInDim s (![] : Fin 0 → Fin s.rank)) (i : s.Idx) :
    broadcastInDim s ![] hb (constant (F := Ideal) (⟨0, ![]⟩ : Shape) .f32 0x7F800000#32) i = (⊤ : EReal) :=
  inf_f32

/-- "All entries of x have |x| < +inf" holding makes every entry of x a real number: the conjunction over all
    indices being 1 gives the comparison at index i, whose right side is +inf. -/
theorem all_finite_real {s : Shape} (x : FVec Ideal s .f32)
    (hb : (⟨0, ![]⟩ : Shape).BroadcastsInDim s (![] : Fin 0 → Fin s.rank))
    {axes : List (Fin s.rank)} (hr : s.ReducesTo axes (⟨0, ![]⟩ : Shape)) (hu : 0 < (⟨0, ![]⟩ : Shape).numel)
    (e : Host.reduce IntOp.andi
        (cmpf .olt (Host.absf x)
          (broadcastInDim s ![] hb (constant (F := Ideal) (⟨0, ![]⟩ : Shape) .f32 0x7F800000#32)))
        (constantI (⟨0, ![]⟩ : Shape) 1 1#1) hr hu ix0 = 1#1) (i : s.Idx) : ∃ r : ℝ, x i = r := by
  refine real_of_abs_lt_top (x i) ?_
  have h := Host.reduce_andi_all _ _ hr hu ix0 e i
  have h' : Ideal.cmp .olt (max (x i) (-(x i))) (Ideal.ofBits .f32 0x7F800000#32) = 1#1 := h
  rw [inf_f32] at h'
  simpa [Ideal.cmp, bit_eq_one] using h'

/-- "All entries of x have x ≥ 0" holding makes every entry of x nonnegative: the conjunction over all indices
    being 1 gives the comparison at index i, whose right side is the pattern of +0.0, the real 0. -/
theorem all_nonneg {s : Shape} (x : FVec Ideal s .f32)
    (hb : (⟨0, ![]⟩ : Shape).BroadcastsInDim s (![] : Fin 0 → Fin s.rank))
    {axes : List (Fin s.rank)} (hr : s.ReducesTo axes (⟨0, ![]⟩ : Shape)) (hu : 0 < (⟨0, ![]⟩ : Shape).numel)
    (e : Host.reduce IntOp.andi
        (cmpf .oge x (broadcastInDim s ![] hb (constant (F := Ideal) (⟨0, ![]⟩ : Shape) .f32 0x00000000#32)))
        (constantI (⟨0, ![]⟩ : Shape) 1 1#1) hr hu ix0 = 1#1) (i : s.Idx) : (0 : EReal) ≤ x i := by
  have h := Host.reduce_andi_all _ _ hr hu ix0 e i
  have h' : Ideal.cmp .oge (x i) (Ideal.ofBits .f32 0x00000000#32) = 1#1 := h
  rw [Ideal.ofBits_zero_f32] at h'
  simpa [Ideal.cmp, bit_eq_one] using h'

end Cert.Lib.AllEntries

end
-- ==== Proof.FiniteInputs.lean ====
/-
  The precondition "every entry of each of the five real-valued arguments has absolute value below +inf", read back
  entry by entry.

  The precondition is one bit: the conjunction of five bits, one per real-valued argument, each the conjunction over
  the whole argument of the entrywise comparison |x| < +inf. When that one bit is 1, each of the five is 1 (a
  conjunction that is 1 has both of its parts 1; the five are nested to the left, ((((p3 ∧ p4) ∧ p5) ∧ p6) ∧ p7)),
  and a conjunction over an array that is 1 has the comparison true at every index; an extended real of absolute value
  below +inf is a real number.
-/
import proofs.«146202_j41832981463504_2_alg».proof.Pre_finite_inputs
import proofs.«146202_j41832981463504_2_alg».proof.Proof.RealEntries
import proofs.«146202_j41832981463504_2_alg».proof.Proof.LibAllEntries

noncomputable section

namespace Cert.FiniteInputs

open Idealize.ShloMosaic Idealize.ShloMosaic.ValueIdx Cert.Lib.AllEntries

/-- When the precondition's bit is 1, every entry of the embedding table, of the edge weights, of the node weights,
    of the classifier's weights and of its bias is a real number. -/
theorem real_of_pre [Cert.Pre_finite_inputs.Facts] (a0 : IVec Cert.Pre_finite_inputs.S64x512 32)
    (a1 a2 : IVec Cert.Pre_finite_inputs.S64x512x16 32)
    (a3 : FVec Ideal Cert.Pre_finite_inputs.S5000x256 .f32) (a4 : FVec Ideal Cert.Pre_finite_inputs.S24990002x1 .f32)
    (a5 : FVec Ideal Cert.Pre_finite_inputs.S5000x1 .f32)
    (a6 : FVec Ideal Cert.Pre_finite_inputs.S20x256 .f32) (a7 : FVec Ideal Cert.Pre_finite_inputs.S20 .f32)
    (h : Cert.Pre_finite_inputs.fn (F := Ideal) a0 a1 a2 a3 a4 a5 a6 a7 = fun _ => 1#1) :
    (∀ i, Cert.RealEntries.IsReal (a3 i)) ∧ (∀ i, Cert.RealEntries.IsReal (a4 i))
      ∧ (∀ i, Cert.RealEntries.IsReal (a5 i))
      ∧ (∀ i, Cert.RealEntries.IsReal (a6 i)) ∧ (∀ i, Cert.RealEntries.IsReal (a7 i)) := by
  have h0 := congrFun h ValueIdx.ix0
  dsimp only [Cert.Pre_finite_inputs.fn, Cert.Pre_finite_inputs.fn_part1] at h0
  -- the outermost conjunction: (the first four) ∧ (the bias)
  obtain ⟨h3456, h7⟩ := and_split _ _ _ h0
  -- (the first three) ∧ (the classifier's weights)
  obtain ⟨h345, h6⟩ := and_split _ _ _ h3456
  -- (the first two) ∧ (the node weights)
  obtain ⟨h34, h5⟩ := and_split _ _ _ h345
  -- (the embedding table) ∧ (the edge weights)
  obtain ⟨h3, h4⟩ := and_split _ _ _ h34
  exact ⟨all_finite_real a3 _ _ _ h3, all_finite_real a4 _ _ _ h4, all_finite_real a5 _ _ _ h5,
    all_finite_real a6 _ _ _ h6, all_finite_real a7 _ _ _ h7⟩

end Cert.FiniteInputs

end
-- ==== Proof.lean ====
/-
  The five claims of this certificate, and their conjunction.

  The kernel classifies each of 64 batch rows from a neighbourhood pooling. For every position of a row it takes the
  largest, over 16 neighbours, of the neighbour's embedding scaled by its edge weight; mixes that with the position's
  own embedding by the position's node weight; sums the mix over the row's 512 positions; multiplies by the
  classifier's weights, adds the bias, floors at zero and takes a log-softmax. The kernel does the pooling in four
  sequence tiles of 128 positions per batch tile, accumulating in scratch memory from zero, and writes its
  log-softmax as "entry minus (row maximum plus logarithm)"; the reference sums all 512 positions at once and writes
  "(entry minus row maximum) minus logarithm".

  On the extended reals a sum taken in four runs is the same sum, and the two spellings of the log-softmax agree as
  soon as the row maximum is a real number. The precondition makes every entry of the five real-valued arguments a
  real number; an entry of a gathered array is an entry of its table; products, sums, differences and maxima of real
  numbers are real numbers, and the maximum over a nonempty row taken from -∞ upward is one of the row's entries. So
  both programs end with the same array (`algebraic`).

  The three frame claims are the generated runs: the kernel's and its idealization's whole frame, and the reference's
  run with its result dropped. The ideal pass rewrote nothing, so `preserves` is `True`.
-/
import proofs.«146202_j41832981463504_2_alg».proof.Defs
import proofs.«146202_j41832981463504_2_alg».proof.Proof.Gen.Kernel
import proofs.«146202_j41832981463504_2_alg».proof.Proof.Gen.Kernel.Skeleton
import proofs.«146202_j41832981463504_2_alg».proof.Proof.Gen.Kernel.Launch
import proofs.«146202_j41832981463504_2_alg».proof.Proof.Gen.Kernel.Points
import proofs.«146202_j41832981463504_2_alg».proof.Proof.Gen.Kernel.Frame
import proofs.«146202_j41832981463504_2_alg».proof.Proof.Gen.KernelIdeal
import proofs.«146202_j41832981463504_2_alg».proof.Proof.Gen.KernelIdeal.Skeleton
import proofs.«146202_j41832981463504_2_alg».proof.Proof.Gen.KernelIdeal.Launch
import proofs.«146202_j41832981463504_2_alg».proof.Proof.Gen.KernelIdeal.Points
import proofs.«146202_j41832981463504_2_alg».proof.Proof.Gen.KernelIdeal.Frame
import proofs.«146202_j41832981463504_2_alg».proof.Proof.Gen.ReferenceIdeal
import proofs.«146202_j41832981463504_2_alg».proof.Proof.Gen.Pre_finite_inputs
import proofs.«146202_j41832981463504_2_alg».proof.Proof.Gen.KernelIdeal.Value
import proofs.«146202_j41832981463504_2_alg».proof.Proof.Gen.ReferenceIdeal.Run
import proofs.«146202_j41832981463504_2_alg».proof.Proof.Gen.ReferenceIdeal.Read
import proofs.«146202_j41832981463504_2_alg».proof.Proof.Spec
import proofs.«146202_j41832981463504_2_alg».proof.Proof.Result
import proofs.«146202_j41832981463504_2_alg».proof.Proof.ReferenceValue
import proofs.«146202_j41832981463504_2_alg».proof.Proof.FiniteInputs
import Idealize.ShloMosaic.Adequacy
import Idealize.ShloMosaic.Init

noncomputable section

namespace Cert.Proof

open Idealize.ShloMosaic Idealize.SL.Sem

/-- The kernel runs, faults nowhere and leaves its arguments as they were: its generated frame. -/
theorem frame_k : Cert.frame_Kernel := fun m ρ _ => Cert.Kernel.Gen.frame m ρ

/-- The same of the kernel read at the ideal values. -/
theorem frame_ki : Cert.frame_KernelIdeal := fun m ρ _ => Cert.KernelIdeal.Gen.frame m ρ

/-- The reference's run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- An entry of a gather is an entry of the table gathered from. -/
theorem gather_real {s si t : Shape} {w : Nat} (d : GatherDims s si t) (x : s.Idx → EReal) (idx : IVec si w)
    (h : ∀ i, Cert.RealEntries.IsReal (x i)) (j : t.Idx) : Cert.RealEntries.IsReal (Host.gather d x idx j) :=
  h _

/-- From memories agreeing on the arguments both programs end with the specified function of the arguments: the
    kernel in its own spelling of the log-softmax, which is the reference's once the inputs are real numbers. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  obtain ⟨h3, h4, h5, h6, h7⟩ := Cert.FiniteInputs.real_of_pre _ _ _ _ _ _ _ _ (hpre c)
  exact (Cert.Spec.outKOf_eq_outOf _ _ _ _ _ _ (fun j => gather_real _ _ _ h3 j) (fun j => gather_real _ _ _ h4 j)
    (fun j => gather_real _ _ _ h3 j) (fun j => gather_real _ _ _ h5 j) h6 h7).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
